-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x165x512 : Shape := ⟨3, ![256, 165, 512]⟩
abbrev S3584x512 : Shape := ⟨2, ![3584, 512]⟩
abbrev S512 : Shape := ⟨1, ![512]⟩
abbrev S_ : Shape := ⟨0, ![]⟩

class Facts : Prop where
  bcast_S_S256x165x512 : S_.BroadcastsInDim S256x165x512 (![] : Fin 0 → Fin S256x165x512.rank)
  reducesTo_S256x165x512_S_d0_1_2 : S256x165x512.ReducesTo [0, 1, 2] S_
  h_S_ : 0 < S_.numel
  bcast_S_S3584x512 : S_.BroadcastsInDim S3584x512 (![] : Fin 0 → Fin S3584x512.rank)
  reducesTo_S3584x512_S_d0_1 : S3584x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S256x165x512 .f32) (main_arg1 : FVec F S3584x512 .f32) (main_arg2 : FVec F S512 .f32) : IVec S_ 1 :=
  let main_v0 : FVec F S256x165x512 .f32 := Host.absf main_arg0
  let main_cst : FVec F S_ .f32 := constant S_ .f32 0x7F800000#32
  let main_v1 : FVec F S256x165x512 .f32 := broadcastInDim S256x165x512 ![] bcast_S_S256x165x512 main_cst
  let main_v2 : IVec S256x165x512 1 := cmpf .olt main_v0 main_v1
  let main_c : IVec S_ 1 := constantI S_ 1 1#1
  let main_v3 : IVec S_ 1 := (fun x v => Host.reduce IntOp.andi x v reducesTo_S256x165x512_S_d0_1_2 h_S_) main_v2 main_c
  let main_v4 : FVec F S3584x512 .f32 := Host.absf main_arg1
  let main_cst_0 : FVec F S_ .f32 := constant S_ .f32 0x7F800000#32
  let main_v5 : FVec F S3584x512 .f32 := broadcastInDim S3584x512 ![] bcast_S_S3584x512 main_cst_0
  let main_v6 : IVec S3584x512 1 := cmpf .olt main_v4 main_v5
  let main_c_1 : IVec S_ 1 := constantI S_ 1 1#1
  let main_v7 : IVec S_ 1 := (fun x v => Host.reduce IntOp.andi x v reducesTo_S3584x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S256x165x512 : Shape := ⟨3, ![256, 165, 512]⟩
abbrev S3584x512 : Shape := ⟨2, ![3584, 512]⟩
abbrev S512 : Shape := ⟨1, ![512]⟩
abbrev S256x11x15x512 : Shape := ⟨4, ![256, 11, 15, 512]⟩
abbrev S_ : Shape := ⟨0, ![]⟩
abbrev S256x13x17x512 : Shape := ⟨4, ![256, 13, 17, 512]⟩
abbrev S1 : Shape := ⟨1, ![1]⟩
abbrev S2 : Shape := ⟨1, ![2]⟩
abbrev S256x221x512 : Shape := ⟨3, ![256, 221, 512]⟩
abbrev S1x512 : Shape := ⟨2, ![1, 512]⟩
abbrev S16x221x512 : Shape := ⟨3, ![16, 221, 512]⟩
abbrev S16x165x512 : Shape := ⟨3, ![16, 165, 512]⟩
abbrev S1x1x512 : Shape := ⟨3, ![1, 1, 512]⟩
abbrev S16x15x512 : Shape := ⟨3, ![16, 15, 512]⟩
abbrev S240x512 : Shape := ⟨2, ![240, 512]⟩
abbrev S512x512 : Shape := ⟨2, ![512, 512]⟩

abbrev nBuf : Space → Nat
  | .hbm => 17
  | .vmem => 8
  | .smem => 0
  | _ => 0

abbrev bufTy : (tb : Table) → Fin (tcTables nBuf tb) → BufTy
  | .hbm, ⟨0, _⟩ => ⟨S256x165x512, .f32⟩
  | .hbm, ⟨1, _⟩ => ⟨S3584x512, .f32⟩
  | .hbm, ⟨2, _⟩ => ⟨S512, .f32⟩
  | .hbm, ⟨3, _⟩ => ⟨S256x165x512, .bf16⟩
  | .hbm, ⟨4, _⟩ => ⟨S256x11x15x512, .bf16⟩
  | .hbm, ⟨5, _⟩ => ⟨S_, .bf16⟩
  | .hbm, ⟨6, _⟩ => ⟨S256x13x17x512, .bf16⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x13x17x512, .bf16⟩
  | .hbm, ⟨13, _⟩ => ⟨S256x221x512, .bf16⟩
  | .hbm, ⟨14, _⟩ => ⟨S3584x512, .bf16⟩
  | .hbm, ⟨15, _⟩ => ⟨S1x512, .f32⟩
  | .hbm, ⟨16, _⟩ => ⟨S256x165x512, .f32⟩
  | .local _ .vmem, ⟨0, _⟩ => ⟨S16x221x512, .bf16⟩
  | .local _ .vmem, ⟨1, _⟩ => ⟨S16x221x512, .bf16⟩
  | .local _ .vmem, ⟨2, _⟩ => ⟨S3584x512, .bf16⟩
  | .local _ .vmem, ⟨3, _⟩ => ⟨S1x512, .f32⟩
  | .local _ .vmem, ⟨4, _⟩ => ⟨S16x165x512, .f32⟩
  | .local _ .vmem, ⟨5, _⟩ => ⟨S16x165x512, .f32⟩
  | .local _ .vmem, ⟨6, _⟩ => ⟨S16x165x512, .f32⟩
  | .local _ .vmem, ⟨7, _⟩ => ⟨S16x165x512, .f32⟩
  | _, _ => ⟨S256x165x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x221x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x165x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x165x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S256x165x512_S256x11x15x512 : S256x165x512.ShapeCasts S256x11x15x512
  bcast_S_S256x13x17x512 : S_.BroadcastsInDim S256x13x17x512 (![] : Fin 0 → Fin S256x13x17x512.rank)
  bcast_S_S1 : S_.BroadcastsInDim S1 (![] : Fin 0 → Fin S1.rank)
  concatenates_S1_S1_S2_d0 : Shape.Concatenates [S1, S1] S2 0
  shapeCasts_S256x13x17x512_S256x221x512 : S256x13x17x512.ShapeCasts S256x221x512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S1x1x512_S1x1x512 : S1x1x512.ShapeCasts S1x1x512
  broadcasts_S1x1x512_S16x15x512 : S1x1x512.Broadcasts S16x15x512
  inb_S16x221x512_S16x15x512_0_0_0 : ∀ a, (![0, 0, 0] : Fin 3 → Nat) a + S16x15x512.size a ≤ S16x221x512.size a
  h_S16x15x512 : 0 < S16x15x512.numel
  shapeCasts_S16x15x512_S16x15x512 : S16x15x512.ShapeCasts S16x15x512
  shapeCasts_S16x15x512_S240x512 : S16x15x512.ShapeCasts S240x512
  inb_S3584x512_S512x512_0_0 : ∀ a, (![0, 0] : Fin 2 → Nat) a + S512x512.size a ≤ S3584x512.size a
  h_S512x512 : 0 < S512x512.numel
  shapeCasts_S512x512_S512x512 : S512x512.ShapeCasts S512x512
  inb_S16x221x512_S16x15x512_0_1_0 : ∀ a, (![0, 1, 0] : Fin 3 → Nat) a + S16x15x512.size a ≤ S16x221x512.size a
  inb_S3584x512_S512x512_512_0 : ∀ a, (![512, 0] : Fin 2 → Nat) a + S512x512.size a ≤ S3584x512.size a
  inb_S16x221x512_S16x15x512_0_17_0 : ∀ a, (![0, 17, 0] : Fin 3 → Nat) a + S16x15x512.size a ≤ S16x221x512.size a
  inb_S3584x512_S512x512_1024_0 : ∀ a, (![1024, 0] : Fin 2 → Nat) a + S512x512.size a ≤ S3584x512.size a
  inb_S16x221x512_S16x15x512_0_18_0 : ∀ a, (![0, 18, 0] : Fin 3 → Nat) a + S16x15x512.size a ≤ S16x221x512.size a
  inb_S3584x512_S512x512_1536_0 : ∀ a, (![1536, 0] : Fin 2 → Nat) a + S512x512.size a ≤ S3584x512.size a
  inb_S16x221x512_S16x15x512_0_19_0 : ∀ a, (![0, 19, 0] : Fin 3 → Nat) a + S16x15x512.size a ≤ S16x221x512.size a
  inb_S3584x512_S512x512_2048_0 : ∀ a, (![2048, 0] : Fin 2 → Nat) a + S512x512.size a ≤ S3584x512.size a
  inb_S16x221x512_S16x15x512_0_34_0 : ∀ a, (![0, 34, 0] : Fin 3 → Nat) a + S16x15x512.size a ≤ S16x221x512.size a
  inb_S3584x512_S512x512_2560_0 : ∀ a, (![2560, 0] : Fin 2 → Nat) a + S512x512.size a ≤ S3584x512.size a
  inb_S16x221x512_S16x15x512_0_35_0 : ∀ a, (![0, 35, 0] : Fin 3 → Nat) a + S16x15x512.size a ≤ S16x221x512.size a
  inb_S3584x512_S512x512_3072_0 : ∀ a, (![3072, 0] : Fin 2 → Nat) a + S512x512.size a ≤ S3584x512.size a
  shapeCasts_S240x512_S16x15x512 : S240x512.ShapeCasts S16x15x512
  inb_S16x165x512_S16x15x512_0_0_0 : ∀ a, (![0, 0, 0] : Fin 3 → Nat) a + S16x15x512.size a ≤ S16x165x512.size a
  inb_S16x221x512_S16x15x512_0_36_0 : ∀ a, (![0, 36, 0] : Fin 3 → Nat) a + S16x15x512.size a ≤ S16x221x512.size a
  inb_S16x221x512_S16x15x512_0_52_0 : ∀ a, (![0, 52, 0] : Fin 3 → Nat) a + S16x15x512.size a ≤ S16x221x512.size a
  inb_S16x221x512_S16x15x512_0_53_0 : ∀ a, (![0, 53, 0] : Fin 3 → Nat) a + S16x15x512.size a ≤ S16x221x512.size a
  inb_S16x165x512_S16x15x512_0_15_0 : ∀ a, (![0, 15, 0] : Fin 3 → Nat) a + S16x15x512.size a ≤ S16x165x512.size a
  inb_S16x221x512_S16x15x512_0_51_0 : ∀ a, (![0, 51, 0] : Fin 3 → Nat) a + S16x15x512.size a ≤ S16x221x512.size a
  inb_S16x221x512_S16x15x512_0_68_0 : ∀ a, (![0, 68, 0] : Fin 3 → Nat) a + S16x15x512.size a ≤ S16x221x512.size a
  inb_S16x221x512_S16x15x512_0_69_0 : ∀ a, (![0, 69, 0] : Fin 3 → Nat) a + S16x15x512.size a ≤ S16x221x512.size a
  inb_S16x165x512_S16x15x512_0_30_0 : ∀ a, (![0, 30, 0] : Fin 3 → Nat) a + S16x15x512.size a ≤ S16x165x512.size a
  inb_S16x221x512_S16x15x512_0_70_0 : ∀ a, (![0, 70, 0] : Fin 3 → Nat) a + S16x15x512.size a ≤ S16x221x512.size a
  inb_S16x221x512_S16x15x512_0_86_0 : ∀ a, (![0, 86, 0] : Fin 3 → Nat) a + S16x15x512.size a ≤ S16x221x512.size a
  inb_S16x221x512_S16x15x512_0_87_0 : ∀ a, (![0, 87, 0] : Fin 3 → Nat) a + S16x15x512.size a ≤ S16x221x512.size a
  inb_S16x165x512_S16x15x512_0_45_0 : ∀ a, (![0, 45, 0] : Fin 3 → Nat) a + S16x15x512.size a ≤ S16x165x512.size a
  inb_S16x221x512_S16x15x512_0_85_0 : ∀ a, (![0, 85, 0] : Fin 3 → Nat) a + S16x15x512.size a ≤ S16x221x512.size a
  inb_S16x221x512_S16x15x512_0_102_0 : ∀ a, (![0, 102, 0] : Fin 3 → Nat) a + S16x15x512.size a ≤ S16x221x512.size a
  inb_S16x221x512_S16x15x512_0_103_0 : ∀ a, (![0, 103, 0] : Fin 3 → Nat) a + S16x15x512.size a ≤ S16x221x512.size a
  inb_S16x165x512_S16x15x512_0_60_0 : ∀ a, (![0, 60, 0] : Fin 3 → Nat) a + S16x15x512.size a ≤ S16x165x512.size a
  inb_S16x221x512_S16x15x512_0_104_0 : ∀ a, (![0, 104, 0] : Fin 3 → Nat) a + S16x15x512.size a ≤ S16x221x512.size a
  inb_S16x221x512_S16x15x512_0_120_0 : ∀ a, (![0, 120, 0] : Fin 3 → Nat) a + S16x15x512.size a ≤ S16x221x512.size a
  inb_S16x221x512_S16x15x512_0_121_0 : ∀ a, (![0, 121, 0] : Fin 3 → Nat) a + S16x15x512.size a ≤ S16x221x512.size a
  inb_S16x165x512_S16x15x512_0_75_0 : ∀ a, (![0, 75, 0] : Fin 3 → Nat) a + S16x15x512.size a ≤ S16x165x512.size a
  inb_S16x221x512_S16x15x512_0_119_0 : ∀ a, (![0, 119, 0] : Fin 3 → Nat) a + S16x15x512.size a ≤ S16x221x512.size a
  inb_S16x221x512_S16x15x512_0_136_0 : ∀ a, (![0, 136, 0] : Fin 3 → Nat) a + S16x15x512.size a ≤ S16x221x512.size a
  inb_S16x221x512_S16x15x512_0_137_0 : ∀ a, (![0, 137, 0] : Fin 3 → Nat) a + S16x15x512.size a ≤ S16x221x512.size a
  inb_S16x165x512_S16x15x512_0_90_0 : ∀ a, (![0, 90, 0] : Fin 3 → Nat) a + S16x15x512.size a ≤ S16x165x512.size a
  inb_S16x221x512_S16x15x512_0_138_0 : ∀ a, (![0, 138, 0] : Fin 3 → Nat) a + S16x15x512.size a ≤ S16x221x512.size a
  inb_S16x221x512_S16x15x512_0_154_0 : ∀ a, (![0, 154, 0] : Fin 3 → Nat) a + S16x15x512.size a ≤ S16x221x512.size a
  inb_S16x221x512_S16x15x512_0_155_0 : ∀ a, (![0, 155, 0] : Fin 3 → Nat) a + S16x15x512.size a ≤ S16x221x512.size a
  inb_S16x165x512_S16x15x512_0_105_0 : ∀ a, (![0, 105, 0] : Fin 3 → Nat) a + S16x15x512.size a ≤ S16x165x512.size a
  inb_S16x221x512_S16x15x512_0_153_0 : ∀ a, (![0, 153, 0] : Fin 3 → Nat) a + S16x15x512.size a ≤ S16x221x512.size a
  inb_S16x221x512_S16x15x512_0_170_0 : ∀ a, (![0, 170, 0] : Fin 3 → Nat) a + S16x15x512.size a ≤ S16x221x512.size a
  inb_S16x221x512_S16x15x512_0_171_0 : ∀ a, (![0, 171, 0] : Fin 3 → Nat) a + S16x15x512.size a ≤ S16x221x512.size a
  inb_S16x165x512_S16x15x512_0_120_0 : ∀ a, (![0, 120, 0] : Fin 3 → Nat) a + S16x15x512.size a ≤ S16x165x512.size a
  inb_S16x221x512_S16x15x512_0_172_0 : ∀ a, (![0, 172, 0] : Fin 3 → Nat) a + S16x15x512.size a ≤ S16x221x512.size a
  inb_S16x221x512_S16x15x512_0_188_0 : ∀ a, (![0, 188, 0] : Fin 3 → Nat) a + S16x15x512.size a ≤ S16x221x512.size a
  inb_S16x221x512_S16x15x512_0_189_0 : ∀ a, (![0, 189, 0] : Fin 3 → Nat) a + S16x15x512.size a ≤ S16x221x512.size a
  inb_S16x165x512_S16x15x512_0_135_0 : ∀ a, (![0, 135, 0] : Fin 3 → Nat) a + S16x15x512.size a ≤ S16x165x512.size a
  inb_S16x221x512_S16x15x512_0_187_0 : ∀ a, (![0, 187, 0] : Fin 3 → Nat) a + S16x15x512.size a ≤ S16x221x512.size a
  inb_S16x221x512_S16x15x512_0_204_0 : ∀ a, (![0, 204, 0] : Fin 3 → Nat) a + S16x15x512.size a ≤ S16x221x512.size a
  inb_S16x221x512_S16x15x512_0_205_0 : ∀ a, (![0, 205, 0] : Fin 3 → Nat) a + S16x15x512.size a ≤ S16x221x512.size a
  inb_S16x165x512_S16x15x512_0_150_0 : ∀ a, (![0, 150, 0] : Fin 3 → Nat) a + S16x15x512.size a ≤ S16x165x512.size a
  scatter_S256x13x17x512_S2_S256x11x15x512_0123_n_12_0_wf : ScatterDims.WF S256x13x17x512 S2 S256x11x15x512 [0, 1, 2, 3] [] [1, 2] 0
  dot_S240x512_S512x512_S240x512_1_0_0_1_n_n_wf : DotDims.WF S240x512 S512x512 S240x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x221x512.size a ≤ S256x221x512.size a
  hwx0_0 : ∀ i : grid0.Coords, EltTy.bits .bf16 = 32 ∨ (Rect.block (s := S256x221x512) S16x221x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3584x512.size a ≤ S3584x512.size a
  hwx0_1 : ∀ i : grid0.Coords, EltTy.bits .bf16 = 32 ∨ (Rect.block (s := S3584x512) S3584x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x165x512.size a ≤ S256x165x512.size a
  hwx0_3 : ∀ i : grid0.Coords, EltTy.bits .f32 = 32 ∨ (Rect.block (s := S256x165x512) S16x165x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x165x512.size a ≤ S256x165x512.size a
  hwx0_4 : ∀ i : grid0.Coords, EltTy.bits .f32 = 32 ∨ (Rect.block (s := S256x165x512) S16x165x512.size (cc0_transform_4 i) (hinb0_4 i)).WholeWords (EltTy.packing .f32)

variable [Facts₀]

def scatter_S256x13x17x512_S2_S256x11x15x512_0123_n_12_0 : ScatterDims S256x13x17x512 S2 S256x11x15x512 where
  updateWindowDims := [0, 1, 2, 3]
  insertedWindowDims := []
  scatterDimsToOperandDims := [1, 2]
  indexVectorDim := 0
  wf := scatter_S256x13x17x512_S2_S256x11x15x512_0123_n_12_0_wf
def dot_S240x512_S512x512_S240x512_1_0_0_1_n_n : DotDims S240x512 S512x512 S240x512 where
  lhsContracting := [1]
  rhsContracting := [0]
  lhsNonContracting := [0]
  rhsNonContracting := [1]
  lhsBatch := []
  rhsBatch := []
  wf := dot_S240x512_S512x512_S240x512_1_0_0_1_n_n_wf

abbrev win0_0 : Pipeline.Window sig grid0 :=
  Pipeline.Window.ofSpec (Memref.whole main_v7) S16x221x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3584x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S16x165x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S16x165x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x165x512 : Shape := ⟨3, ![256, 165, 512]⟩
abbrev S3584x512 : Shape := ⟨2, ![3584, 512]⟩
abbrev S512 : Shape := ⟨1, ![512]⟩
abbrev S1155 : Shape := ⟨1, ![1155]⟩
abbrev S256x11x15x512 : Shape := ⟨4, ![256, 11, 15, 512]⟩
abbrev S_ : Shape := ⟨0, ![]⟩
abbrev S256x13x17x512 : Shape := ⟨4, ![256, 13, 17, 512]⟩
abbrev S1 : Shape := ⟨1, ![1]⟩
abbrev S2 : Shape := ⟨1, ![2]⟩
abbrev S256x221x512 : Shape := ⟨3, ![256, 221, 512]⟩
abbrev S1155x1 : Shape := ⟨2, ![1155, 1]⟩
abbrev S256x1155x512 : Shape := ⟨3, ![256, 1155, 512]⟩
abbrev S256x165x3584 : Shape := ⟨3, ![256, 165, 3584]⟩
abbrev S1x1x512 : Shape := ⟨3, ![1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S256x165x512, .f32⟩
  | .hbm, ⟨1, _⟩ => ⟨S3584x512, .f32⟩
  | .hbm, ⟨2, _⟩ => ⟨S512, .f32⟩
  | .hbm, ⟨3, _⟩ => ⟨S1155, .i32⟩
  | .hbm, ⟨4, _⟩ => ⟨S256x11x15x512, .f32⟩
  | .hbm, ⟨5, _⟩ => ⟨S_, .f32⟩
  | .hbm, ⟨6, _⟩ => ⟨S256x13x17x512, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S256x13x17x512, .f32⟩
  | .hbm, ⟨13, _⟩ => ⟨S256x221x512, .f32⟩
  | .hbm, ⟨14, _⟩ => ⟨S_, .i32⟩
  | .hbm, ⟨15, _⟩ => ⟨S1155, .i32⟩
  | .hbm, ⟨16, _⟩ => ⟨S1155, .i1⟩
  | .hbm, ⟨17, _⟩ => ⟨S_, .i32⟩
  | .hbm, ⟨18, _⟩ => ⟨S1155, .i32⟩
  | .hbm, ⟨19, _⟩ => ⟨S1155, .i32⟩
  | .hbm, ⟨20, _⟩ => ⟨S1155, .i32⟩
  | .hbm, ⟨21, _⟩ => ⟨S1155x1, .i32⟩
  | .hbm, ⟨22, _⟩ => ⟨S256x1155x512, .f32⟩
  | .hbm, ⟨23, _⟩ => ⟨S256x165x3584, .f32⟩
  | .hbm, ⟨24, _⟩ => ⟨S256x165x512, .f32⟩
  | .hbm, ⟨25, _⟩ => ⟨S1x1x512, .f32⟩
  | .hbm, ⟨26, _⟩ => ⟨S256x165x512, .f32⟩
  | .hbm, ⟨27, _⟩ => ⟨S256x165x512, .f32⟩
  | .hbm, ⟨28, _⟩ => ⟨S_, .f32⟩
  | .hbm, ⟨29, _⟩ => ⟨S_, .f32⟩
  | .hbm, ⟨30, _⟩ => ⟨S256x165x512, .f32⟩
  | .hbm, ⟨31, _⟩ => ⟨S256x165x512, .i1⟩
  | .hbm, ⟨32, _⟩ => ⟨S_, .f32⟩
  | .hbm, ⟨33, _⟩ => ⟨S256x165x512, .f32⟩
  | .hbm, ⟨34, _⟩ => ⟨S256x165x512, .f32⟩
  | .hbm, ⟨35, _⟩ => ⟨S256x165x512, .f32⟩
  | .hbm, ⟨36, _⟩ => ⟨S256x165x512, .f32⟩
  | _, _ => ⟨S256x165x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  shapeCasts_S256x165x512_S256x11x15x512 : S256x165x512.ShapeCasts S256x11x15x512
  bcast_S_S256x13x17x512 : S_.BroadcastsInDim S256x13x17x512 (![] : Fin 0 → Fin S256x13x17x512.rank)
  bcast_S_S1 : S_.BroadcastsInDim S1 (![] : Fin 0 → Fin S1.rank)
  concatenates_S1_S1_S2_d0 : Shape.Concatenates [S1, S1] S2 0
  shapeCasts_S256x13x17x512_S256x221x512 : S256x13x17x512.ShapeCasts S256x221x512
  bcast_S_S1155 : S_.BroadcastsInDim S1155 (![] : Fin 0 → Fin S1155.rank)
  bcast_S1155_S1155x1_0 : S1155.BroadcastsInDim S1155x1 (![0] : Fin 1 → Fin S1155x1.rank)
  shapeCasts_S256x1155x512_S256x165x3584 : S256x1155x512.ShapeCasts S256x165x3584
  bcast_S512_S1x1x512_2 : S512.BroadcastsInDim S1x1x512 (![2] : Fin 1 → Fin S1x1x512.rank)
  bcast_S1x1x512_S256x165x512_0_1_2 : S1x1x512.BroadcastsInDim S256x165x512 (![0, 1, 2] : Fin 3 → Fin S256x165x512.rank)
  bcast_S_S256x165x512 : S_.BroadcastsInDim S256x165x512 (![] : Fin 0 → Fin S256x165x512.rank)
  scatter_S256x13x17x512_S2_S256x11x15x512_0123_n_12_0_wf : ScatterDims.WF S256x13x17x512 S2 S256x11x15x512 [0, 1, 2, 3] [] [1, 2] 0
  gather_S256x221x512_S1155x1_S256x1155x512_02_1_n_n_1_1_2561512_wf : GatherDims.WF S256x221x512 S1155x1 S256x1155x512 [0, 2] [1] [] [1] [] 1 ![256, 1, 512]
  dot_S256x165x3584_S3584x512_S256x165x512_2_0_01_1_n_n_wf : DotDims.WF S256x165x3584 S3584x512 S256x165x512 [2] [0] [0, 1] [1] [] []

variable [Facts₀]

def scatter_S256x13x17x512_S2_S256x11x15x512_0123_n_12_0 : ScatterDims S256x13x17x512 S2 S256x11x15x512 where
  updateWindowDims := [0, 1, 2, 3]
  insertedWindowDims := []
  scatterDimsToOperandDims := [1, 2]
  indexVectorDim := 0
  wf := scatter_S256x13x17x512_S2_S256x11x15x512_0123_n_12_0_wf
def gather_S256x221x512_S1155x1_S256x1155x512_02_1_n_n_1_1_2561512 : GatherDims S256x221x512 S1155x1 S256x1155x512 where
  offsetDims := [0, 2]
  collapsedSliceDims := [1]
  operandBatchingDims := []
  startIndicesBatchingDims := []
  startIndexMap := [1]
  indexVectorDim := 1
  sliceSizes := ![256, 1, 512]
  wf := gather_S256x221x512_S1155x1_S256x1155x512_02_1_n_n_1_1_2561512_wf
def dot_S256x165x3584_S3584x512_S256x165x512_2_0_01_1_n_n : DotDims S256x165x3584 S3584x512 S256x165x512 where
  lhsContracting := [2]
  rhsContracting := [0]
  lhsNonContracting := [0, 1]
  rhsNonContracting := [1]
  lhsBatch := []
  rhsBatch := []
  wf := dot_S256x165x3584_S3584x512_S256x165x512_2_0_01_1_n_n_wf

class Facts : Prop extends Facts₀ where

variable [Facts]
-- ==== Proof.Spec.lean ====
/-
  The hexagonal convolution layer as one function of its arrays.

  A batch entry is a grid of 11 rows of 15 hexagons with 512 channels, stored as 165 consecutive cells; around it lies
  a border of zeros, so that the padded grid has 13 rows of 17 cells, stored as 221 consecutive cells. Cell n of the
  unpadded grid lies in row n / 15 at position n % 15. Its seven neighbours (itself included) are seven cells of the
  padded grid; which ones depends only on the parity of the row, and for a fixed row and a fixed neighbour number j the
  neighbours of the 15 cells of the row are 15 CONSECUTIVE padded cells, beginning at `start row j`.

  The layer's result at batch entry bb, cell n and output channel c is
      X(bb, n, c) + leaky( (sum over the seven neighbours j and the 512 input channels k of
                               P(bb, start (n / 15) j + n % 15, k) * W(512 * j + k, c)) + b(c) ),
  where P is the padded input, W the 3584 x 512 weight, b the bias, X the unpadded input (the residual), and
  leaky(v) is v when v >= 0 and 0.01 * v otherwise (0.01 standing for the single-precision number nearest to it).
  Nothing here needs the entries to be finite: the statement is about the extended reals as they are.
-/
import Idealize.ShloMosaic.Lib.ValueIdx
import Idealize.ShloMosaic.PureOps.Ideal

noncomputable section

namespace Cert.HexConv

open Idealize.ShloMosaic Idealize.ShloMosaic.ValueIdx

/-- First padded cell of the run of 15 neighbours number j of the cells of row y0. -/
def start : Fin 11 → Fin 7 → ℕ :=
  ![![0, 1, 17, 18, 19, 34, 35],
    ![18, 19, 34, 35, 36, 52, 53],
    ![34, 35, 51, 52, 53, 68, 69],
    ![52, 53, 68, 69, 70, 86, 87],
    ![68, 69, 85, 86, 87, 102, 103],
    ![86, 87, 102, 103, 104, 120, 121],
    ![102, 103, 119, 120, 121, 136, 137],
    ![120, 121, 136, 137, 138, 154, 155],
    ![136, 137, 153, 154, 155, 170, 171],
    ![154, 155, 170, 171, 172, 188, 189],
    ![170, 171, 187, 188, 189, 204, 205]]

/-- Every neighbour of every cell is one of the 221 padded cells. -/
theorem start_add_lt : ∀ (y0 : Fin 11) (j : Fin 7) (x : Fin 15), start y0 j + x.val < 221 := by decide

/-- The row of cell n. -/
def rowOf (n : Fin 165) : Fin 11 := ⟨n.val / 15, by have := n.isLt; omega⟩

/-- The position of cell n in its row. -/
def posOf (n : Fin 165) : Fin 15 := ⟨n.val % 15, Nat.mod_lt _ (by norm_num)⟩

/-- Neighbour number j of cell n, as a padded cell. -/
def nbr (n : Fin 165) (j : Fin 7) : Fin 221 := ⟨start (rowOf n) j + (posOf n).val, start_add_lt _ _ _⟩

/-- Row 512 * j + k of the weight: input channel k of neighbour j. -/
def wrow (j : Fin 7) (k : Fin 512) : Fin 3584 := ⟨512 * j.val + k.val, by have := j.isLt; have := k.isLt; omega⟩

/-- The leaky rectifier with slope 0.01 (the single-precision number written 0.01), on the extended reals. -/
def leaky (v : EReal) : EReal :=
  Scalar.select (Ideal.cmp .oge v (Ideal.ofBits .f32 0x00000000#32)) v (Ideal.ofBits .f32 0x3C23D70A#32 * v)

/-- The layer's result at batch entry bb, cell n, output channel c (for a batch of any size B). -/
def hexAt {B : ℕ} (P : (⟨3, ![B, 221, 512]⟩ : Shape).Idx → EReal) (W : (⟨2, ![3584, 512]⟩ : Shape).Idx → EReal)
    (b : (⟨1, ![512]⟩ : Shape).Idx → EReal) (X : (⟨3, ![B, 165, 512]⟩ : Shape).Idx → EReal)
    (bb : Fin B) (n : Fin 165) (c : Fin 512) : EReal :=
  X (ix3 bb n c) + leaky ((∑ j : Fin 7, ∑ k : Fin 512, P (ix3 bb (nbr n j) k) * W (ix2 (wrow j k) c)) + b (ix1 c))

/-- The layer's result as an array. -/
def hexOut {B : ℕ} (P : (⟨3, ![B, 221, 512]⟩ : Shape).Idx → EReal) (W : (⟨2, ![3584, 512]⟩ : Shape).Idx → EReal)
    (b : (⟨1, ![512]⟩ : Shape).Idx → EReal) (X : (⟨3, ![B, 165, 512]⟩ : Shape).Idx → EReal) :
    (⟨3, ![B, 165, 512]⟩ : Shape).Idx → EReal :=
  fun i => hexAt P W b X (i 0) (i 1) (i 2)

theorem hexOut_ix3 {B : ℕ} (P : (⟨3, ![B, 221, 512]⟩ : Shape).Idx → EReal) (W : (⟨2, ![3584, 512]⟩ : Shape).Idx → EReal)
    (b : (⟨1, ![512]⟩ : Shape).Idx → EReal) (X : (⟨3, ![B, 165, 512]⟩ : Shape).Idx → EReal)
    (bb : Fin B) (n : Fin 165) (c : Fin 512) : hexOut P W b X (ix3 bb n c) = hexAt P W b X bb n c := rfl

end Cert.HexConv

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KernelRow.lean ====
/-
  One row of hexagons inside the kernel body.

  For each of the 11 rows of a batch block the body forms seven products of a [16*15, 512] matrix (the 15 cells of
  the row shifted to one of the seven neighbour positions, for the 16 batch entries of the block) with a [512, 512]
  slice of the weight, adds them up from left to right, folds the sum back to [16, 15, 512], adds the bias row,
  applies the leaky rectifier and adds the residual. Written once as a function of the fourteen matrices, the
  bias and the residual, every row of the body is this one function of its own loads; at an index it is
      xr(tb, x, c) + leaky( (sum over j < 7 of sum over k < 512 of a_j(tb, x, k) * w_j(k, c)) + bias(c) ).
-/
import proofs.«144630_j18339510353957_2_alg».proof.Proof.Gen.KernelIdeal.Skeleton
import proofs.«144630_j18339510353957_2_alg».proof.Proof.Spec
import proofs.«144630_j18339510353957_2_alg».proof.Proof.LibPlainDot
import Idealize.ShloMosaic.Lib.Pipeline.Value
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx Cert.HexConv

/-! ## The row as one function, at any float instance -/

section Structure

variable {F : FTy → Type} [FloatOps F]

/-- One neighbour's product: the [16, 15, 512] cells flattened to [240, 512], times a [512, 512] slice of the weight. -/
def part (a : Vec F S16x15x512 .bf16) (w : Vec F S512x512 .bf16) : FVec F S240x512 .f32 :=
  matmul dot_S240x512_S512x512_S240x512_1_0_0_1_n_n none
    (shapeCast S240x512 (shapeCast S16x15x512 a shapeCasts_S16x15x512_S16x15x512) shapeCasts_S16x15x512_S240x512)
    (shapeCast S512x512 w shapeCasts_S512x512_S512x512) (constant S240x512 .f32 0x00000000#32)

/-- What follows the seven products: fold back, add the bias, rectify, add the residual. -/
def rowTail (acc : FVec F S240x512 .f32) (bias : FVec F S16x15x512 .f32) (xr : Vec F S16x15x512 .f32) :
    FVec F S16x15x512 .f32 :=
  addf xr (select (cmpf .oge (addf (shapeCast S16x15x512 acc shapeCasts_S240x512_S16x15x512) bias)
      (broadcast S16x15x512 (Scalar.ofBits .f32 0x00000000#32)))
    (addf (shapeCast S16x15x512 acc shapeCasts_S240x512_S16x15x512) bias)
    (mulf (broadcast S16x15x512 (Scalar.ofBits .f32 0x3C23D70A#32))
      (addf (shapeCast S16x15x512 acc shapeCasts_S240x512_S16x15x512) bias)))

/-- The whole row: the seven products added from left to right, then the tail. -/
def rowOut (a0 : Vec F S16x15x512 .bf16) (w0 : Vec F S512x512 .bf16) (a1 : Vec F S16x15x512 .bf16) (w1 : Vec F S512x512 .bf16)
    (a2 : Vec F S16x15x512 .bf16) (w2 : Vec F S512x512 .bf16) (a3 : Vec F S16x15x512 .bf16) (w3 : Vec F S512x512 .bf16)
    (a4 : Vec F S16x15x512 .bf16) (w4 : Vec F S512x512 .bf16) (a5 : Vec F S16x15x512 .bf16) (w5 : Vec F S512x512 .bf16)
    (a6 : Vec F S16x15x512 .bf16) (w6 : Vec F S512x512 .bf16) (bias : FVec F S16x15x512 .f32) (xr : Vec F S16x15x512 .f32) :
    FVec F S16x15x512 .f32 :=
  rowTail (addf (addf (addf (addf (addf (addf (part a0 w0) (part a1 w1)) (part a2 w2)) (part a3 w3)) (part a4 w4)) (part a5 w5)) (part a6 w6))
    bias xr

variable (a0 a1 a2 a3 a4 a5 a6 : Vec F S16x15x512 .bf16) (w0 w1 w2 w3 w4 w5 w6 : Vec F S512x512 .bf16)
  (bias : FVec F S16x15x512 .f32) (xr : Vec F S16x15x512 .f32)

/-! Each of the body's eleven stored values is this function of its loads: the body's intermediate values are cut at
    different places in different rows, but substituted into one another they are the same tree of operations. -/

theorem piece_0 : k0_pay4 bias (k0_pay3 a0 w0 a1 w1 a2 w2 a3 w3) a4 w4 a5 w5 a6 w6 xr = rowOut a0 w0 a1 w1 a2 w2 a3 w3 a4 w4 a5 w5 a6 w6 bias xr := rfl
theorem piece_1 : k0_pay7 bias (k0_pay5 a0 w0 a1 w1 a2 w2 a3 w3) (k0_pay6 a4 w4) a5 w5 a6 w6 xr = rowOut a0 w0 a1 w1 a2 w2 a3 w3 a4 w4 a5 w5 a6 w6 bias xr := rfl
theorem piece_2 : k0_pay12 bias (k0_pay9 (k0_pay8 a0 w0) a1 w1 a2 w2 a3 w3 a4 w4) (k0_pay10 a5) (k0_pay11 w5) a6 w6 xr = rowOut a0 w0 a1 w1 a2 w2 a3 w3 a4 w4 a5 w5 a6 w6 bias xr := rfl
theorem piece_3 : k0_pay16 bias (k0_pay14 (k0_pay13 a0 w0 a1 w1) a2 w2 a3 w3 a4 w4 a5 w5) (k0_pay15 a6) w6 xr = rowOut a0 w0 a1 w1 a2 w2 a3 w3 a4 w4 a5 w5 a6 w6 bias xr := rfl
theorem piece_4 : k0_pay22 (k0_pay20 bias (k0_pay17 a0 w0 a1 w1) (k0_pay18 a2) (k0_pay19 w2) (constant S240x512 .f32 0x00000000#32) a3 w3 a4 w4 a5 w5 a6 w6) (k0_pay21 bias (k0_pay17 a0 w0 a1 w1) (k0_pay18 a2) (k0_pay19 w2) (constant S240x512 .f32 0x00000000#32) a3 w3 a4 w4 a5 w5 a6 w6) (Scalar.ofBits .f32 0x3C23D70A#32) xr = rowOut a0 w0 a1 w1 a2 w2 a3 w3 a4 w4 a5 w5 a6 w6 bias xr := rfl
theorem piece_5 : k0_pay25 bias (k0_pay23 a0 w0 a1 w1 a2 w2) (k0_pay24 a3) w3 a4 w4 a5 w5 a6 w6 xr = rowOut a0 w0 a1 w1 a2 w2 a3 w3 a4 w4 a5 w5 a6 w6 bias xr := rfl
theorem piece_6 : k0_pay28 bias (k0_pay26 a0 w0 a1 w1 a2 w2 a3 w3) (k0_pay27 a4) w4 a5 w5 a6 w6 xr = rowOut a0 w0 a1 w1 a2 w2 a3 w3 a4 w4 a5 w5 a6 w6 bias xr := rfl
theorem piece_7 : k0_pay32 bias (k0_pay30 (k0_pay29 a0) w0 a1 w1 a2 w2 a3 w3 a4 w4) (k0_pay31 a5) w5 a6 w6 xr = rowOut a0 w0 a1 w1 a2 w2 a3 w3 a4 w4 a5 w5 a6 w6 bias xr := rfl
theorem piece_8 : k0_pay36 bias (k0_pay35 (k0_pay33 a0 w0) (k0_pay34 a1) w1 a2 w2 a3 w3 a4 w4 a5 w5) a6 w6 xr = rowOut a0 w0 a1 w1 a2 w2 a3 w3 a4 w4 a5 w5 a6 w6 bias xr := rfl
theorem piece_9 : k0_pay40 bias (k0_pay39 (k0_pay37 a0 w0 a1 w1) (k0_pay38 a2) w2 a3 w3 a4 w4 a5 w5 a6 w6) xr = rowOut a0 w0 a1 w1 a2 w2 a3 w3 a4 w4 a5 w5 a6 w6 bias xr := rfl
theorem piece_10 : k0_pay1 (k0_pay42 bias (k0_pay41 a0 w0 a1 w1 a2 w2) a3 w3 a4 w4 a5 w5 a6 w6) xr = rowOut a0 w0 a1 w1 a2 w2 a3 w3 a4 w4 a5 w5 a6 w6 bias xr := rfl

end Structure

end Cert.KernelIdeal.Row

end
-- ==== Proof.KernelRowAt.lean ====
/-
  The row function read at an index, on the extended reals.
-/
import proofs.«144630_j18339510353957_2_alg».proof.Proof.KernelRow

noncomputable section

namespace Cert.KernelIdeal.Row

open Cert.KernelIdeal Cert.KernelIdeal.Gen Idealize.ShloMosaic Idealize.ShloMosaic.ValueIdx Cert.HexConv

/-- Row 15 * tb + x of the flattened [240, 512] matrix is cell x of batch entry tb. -/
def flatRow (tb : Fin 16) (x : Fin 15) : Fin 240 := ⟨15 * tb.val + x.val, by have := tb.isLt; have := x.isLt; omega⟩

/-- One neighbour's product at row (tb, x) and column c: the sum over the 512 input channels. -/
theorem part_apply (a : Vec Ideal S16x15x512 .bf16) (w : Vec Ideal S512x512 .bf16) (tb : Fin 16) (x : Fin 15) (c : Fin 512) :
    part (F := Ideal) a w (ix2 (flatRow tb x) c) = ∑ k : Fin 512, a (ix3 tb x k) * w (ix2 k c) := by
  unfold part
  rw [shapeCast_self, shapeCast_self]
  refine (PlainDot.matmul_zero_apply (φ₁ := .bf16) (φ₂ := .bf16) dot_S240x512_S512x512_S240x512_1_0_0_1_n_n rfl rfl rfl rfl rfl rfl rfl rfl none
    (shapeCast S240x512 a shapeCasts_S16x15x512_S240x512) w (flatRow tb x) c).trans ?_
  refine Finset.sum_congr rfl fun k _ => ?_
  congr 1
  refine shapeCast_apply _ _ _ _ ?_
  rw [Shape.rowMajor_val_three, Shape.rowMajor_val_two]
  show (tb.val * 15 + x.val) * 512 + k.val = (15 * tb.val + x.val) * 512 + k.val
  omega

/-- The bias row spread over the block reads the bias of the column. -/
theorem bias_apply (v0 : Vec Ideal S1x512 .f32) (tb : Fin 16) (x : Fin 15) (c : Fin 512) :
    k0_pay2 (F := Ideal) v0 (ix3 tb x c) = v0 (ix2 0 c) := by
  unfold k0_pay2
  rw [shapeCast_self, shapeCast_self]
  refine (broadcastTo_apply _ _ _ (ix3 0 0 c) ?_).trans ?_
  · intro a
    match a with
    | ⟨0, _⟩ => rfl
    | ⟨1, _⟩ => rfl
    | ⟨2, _⟩ => rfl
  · refine shapeCast_apply _ _ _ _ ?_
    rw [Shape.rowMajor_val_three, Shape.rowMajor_val_two]
    rfl

/-- The tail at an index: residual plus the rectified sum of the accumulated products and the bias. -/
theorem rowTail_apply (acc : FVec Ideal S240x512 .f32) (bias : FVec Ideal S16x15x512 .f32) (xr : Vec Ideal S16x15x512 .f32)
    (tb : Fin 16) (x : Fin 15) (c : Fin 512) :
    rowTail (F := Ideal) acc bias xr (ix3 tb x c)
      = xr (ix3 tb x c) + leaky (acc (ix2 (flatRow tb x) c) + bias (ix3 tb x c)) := by
  have e : shapeCast S16x15x512 acc shapeCasts_S240x512_S16x15x512 (ix3 tb x c) = acc (ix2 (flatRow tb x) c) := by
    refine shapeCast_apply _ _ _ _ ?_
    rw [Shape.rowMajor_val_three, Shape.rowMajor_val_two]
    show (15 * tb.val + x.val) * 512 + c.val = (tb.val * 15 + x.val) * 512 + c.val
    omega
  unfold rowTail
  rw [addf_apply, select_apply, cmpf_apply, addf_apply, mulf_apply, addf_apply, broadcast_apply, broadcast_apply, e]
  rfl

/-! ## The row against the layer's specification -/

/-- Cell x of row y0. -/
def cell (y0 : Fin 11) (x : Fin 15) : Fin 165 := ⟨15 * y0.val + x.val, by have := y0.isLt; have := x.isLt; omega⟩

theorem rowOf_cell (y0 : Fin 11) (x : Fin 15) : rowOf (cell y0 x) = y0 := by
  apply Fin.ext; show (15 * y0.val + x.val) / 15 = y0.val; have := x.isLt; omega

theorem posOf_cell (y0 : Fin 11) (x : Fin 15) : posOf (cell y0 x) = x := by
  apply Fin.ext; show (15 * y0.val + x.val) % 15 = x.val; have := x.isLt; omega

theorem nbr_cell (y0 : Fin 11) (x : Fin 15) (j : Fin 7) :
    nbr (cell y0 x) j = ⟨start y0 j + x.val, start_add_lt y0 j x⟩ := by
  apply Fin.ext; show start (rowOf (cell y0 x)) j + (posOf (cell y0 x)).val = start y0 j + x.val
  rw [rowOf_cell, posOf_cell]

/-- A row of the body whose seven cell matrices are the block's cells shifted to the seven neighbour runs of row y0,
    whose seven weight matrices are the seven 512-row slices of the weight, and whose residual is row y0 of the block,
    is the layer's specification on the cells of row y0. -/
theorem rowOut_eq_hexAt (x0 : Vec Ideal S16x221x512 .bf16) (x1 : Vec Ideal S3584x512 .bf16) (v0 : Vec Ideal S1x512 .f32)
    (x3 : Vec Ideal S16x165x512 .f32) (y0 : Fin 11)
    (a : Fin 7 → Vec Ideal S16x15x512 .bf16) (w : Fin 7 → Vec Ideal S512x512 .bf16) (xr : Vec Ideal S16x15x512 .f32)
    (ha : ∀ (j : Fin 7) (tb : Fin 16) (x : Fin 15) (k : Fin 512),
      a j (ix3 tb x k) = x0 (ix3 tb (⟨start y0 j + x.val, start_add_lt y0 j x⟩ : Fin 221) k))
    (hw : ∀ (j : Fin 7) (k c : Fin 512), w j (ix2 k c) = x1 (ix2 (wrow j k) c))
    (hx : ∀ (tb : Fin 16) (x : Fin 15) (c : Fin 512), xr (ix3 tb x c) = x3 (ix3 tb (cell y0 x) c))
    (tb : Fin 16) (x : Fin 15) (c : Fin 512) :
    rowOut (F := Ideal) (a 0) (w 0) (a 1) (w 1) (a 2) (w 2) (a 3) (w 3) (a 4) (w 4) (a 5) (w 5) (a 6) (w 6) (k0_pay2 v0) xr (ix3 tb x c)
      = hexAt x0 x1 (fun i => v0 (ix2 0 (i 0))) x3 tb (cell y0 x) c := by
  unfold rowOut
  rw [rowTail_apply, bias_apply, addf_apply, addf_apply, addf_apply, addf_apply, addf_apply, addf_apply,
    part_apply, part_apply, part_apply, part_apply, part_apply, part_apply, part_apply, hx]
  unfold hexAt
  rw [Fin.sum_univ_seven]
  simp only [ha, hw, nbr_cell]

end Cert.KernelIdeal.Row

end
-- ==== Proof.KernelBlock.lean ====
/-
  The whole block the body leaves in its output buffer.

  The body writes its [16, 165, 512] output block row by row, eleven stores of [16, 15, 512]. Each stored value is the
  row function of loads that are the block's own cells shifted to the neighbour runs of that row, so every store
  agrees with ONE function of the block index: the layer's specification read on the block (batch entries 0..15 of
  the block, the whole weight, the bias row, the residual block). Since the eleven rows tile the block, the buffer
  ends as that function.
-/
import proofs.«144630_j18339510353957_2_alg».proof.Proof.Gen.KernelIdeal.Frame
import proofs.«144630_j18339510353957_2_alg».proof.Proof.KernelRowAt

set_option maxRecDepth 16384

noncomputable section

namespace Cert.KernelIdeal.Block

open Cert.KernelIdeal Cert.KernelIdeal.Gen Idealize.ShloMosaic Idealize.ShloMosaic.ValueIdx Cert.HexConv Cert.KernelIdeal.Row

/-- A load through a rectangle of consecutive cells of a three-axis array reads the array at the shifted index. -/
theorem ld3 {A B C a b c : ℕ} {Val : EltTy → Type} {e : EltTy} (X : (⟨3, ![A, B, C]⟩ : Shape).Idx → Val e) (o0 o1 o2 : ℕ)
    (inb : ∀ d, (![o0, o1, o2] : Fin 3 → ℕ) d + (⟨3, ![a, b, c]⟩ : Shape).size d ≤ (⟨3, ![A, B, C]⟩ : Shape).size d)
    (p : Fin a) (q : Fin b) (r : Fin c) (P : Fin A) (Q : Fin B) (R : Fin C)
    (hP : P.val = o0 + p.val) (hQ : Q.val = o1 + q.val) (hR : R.val = o2 + r.val) :
    View.ld X (Rect.unit (s := ⟨3, ![A, B, C]⟩) ![o0, o1, o2] (⟨3, ![a, b, c]⟩ : Shape).size inb) (ix3 p q r) = X (ix3 P Q R) := by
  show X ((Rect.unit (s := ⟨3, ![A, B, C]⟩) ![o0, o1, o2] (⟨3, ![a, b, c]⟩ : Shape).size inb).idx (ix3 p q r)) = X (ix3 P Q R)
  congr 1
  funext d
  apply Fin.ext
  match d with
  | ⟨0, _⟩ => show o0 + 1 * p.val = P.val; omega
  | ⟨1, _⟩ => show o1 + 1 * q.val = Q.val; omega
  | ⟨2, _⟩ => show o2 + 1 * r.val = R.val; omega

/-- The same for a two-axis array. -/
theorem ld2 {A B a b : ℕ} {Val : EltTy → Type} {e : EltTy} (X : (⟨2, ![A, B]⟩ : Shape).Idx → Val e) (o0 o1 : ℕ)
    (inb : ∀ d, (![o0, o1] : Fin 2 → ℕ) d + (⟨2, ![a, b]⟩ : Shape).size d ≤ (⟨2, ![A, B]⟩ : Shape).size d)
    (p : Fin a) (q : Fin b) (P : Fin A) (Q : Fin B)
    (hP : P.val = o0 + p.val) (hQ : Q.val = o1 + q.val) :
    View.ld X (Rect.unit (s := ⟨2, ![A, B]⟩) ![o0, o1] (⟨2, ![a, b]⟩ : Shape).size inb) (ix2 p q) = X (ix2 P Q) := by
  show X ((Rect.unit (s := ⟨2, ![A, B]⟩) ![o0, o1] (⟨2, ![a, b]⟩ : Shape).size inb).idx (ix2 p q)) = X (ix2 P Q)
  congr 1
  funext d
  apply Fin.ext
  match d with
  | ⟨0, _⟩ => show o0 + 1 * p.val = P.val; omega
  | ⟨1, _⟩ => show o1 + 1 * q.val = Q.val; omega

variable (x0 : Vec Ideal S16x221x512 .bf16) (x1 : Vec Ideal S3584x512 .bf16) (x2 : Vec Ideal S1x512 .f32)
  (x3 : Vec Ideal S16x165x512 .f32)

/-- The specification read on a block: 16 batch entries, the bias taken from the block's one bias row. -/
def blkOut : S16x165x512.Idx → EReal := hexOut x0 x1 (fun i => x2 (ix2 0 (i 0))) x3

/-- The specification at the block index that cell x of row y0 has inside the stored rectangle of that row. -/
theorem blkOut_emb (o0 o1 o2 : ℕ)
    (inb : ∀ d, (![o0, o1, o2] : Fin 3 → ℕ) d + S16x15x512.size d ≤ S16x165x512.size d)
    (tb : Fin 16) (x : Fin 15) (c : Fin 512) (y0 : Fin 11) (h0 : o0 = 0) (h1 : o1 = 15 * y0.val) (h2 : o2 = 0) :
    hexAt x0 x1 (fun i => View.ld x2 r0_0 (ix2 0 (i 0))) x3 tb (cell y0 x) c
      = blkOut x0 x1 x2 x3 ((Rect.unit (s := S16x165x512) ![o0, o1, o2] S16x15x512.size inb).emb (ix3 tb x c)) := by
  have e : (Rect.unit (s := S16x165x512) ![o0, o1, o2] S16x15x512.size inb).emb (ix3 tb x c) = ix3 tb (cell y0 x) c := by
    funext d
    apply Fin.ext
    match d with
    | ⟨0, _⟩ => show o0 + 1 * tb.val = tb.val; omega
    | ⟨1, _⟩ => show o1 + 1 * x.val = 15 * y0.val + x.val; omega
    | ⟨2, _⟩ => show o2 + 1 * c.val = c.val; omega
  rw [e]
  unfold blkOut
  rw [hexOut_ix3]
  have hb : (fun i : (⟨1, ![512]⟩ : Shape).Idx => View.ld x2 r0_0 (ix2 0 (i 0))) = fun i => x2 (ix2 0 (i 0)) := by
    funext i
    exact ld2 x2 _ _ _ 0 (i 0) 0 (i 0) rfl (by omega)
  rw [hb]

/-- Row 0 of the block: what the body stores there is the specification on that row's cells. -/
theorem agree_0 (x : S16x15x512.Idx) :
    (k0_pay4 (k0_pay2 (View.ld x2 r0_0)) (k0_pay3 (View.ld x0 r0_1) (View.ld x1 r0_2) (View.ld x0 r0_3) (View.ld x1 r0_4) (View.ld x0 r0_5) (View.ld x1 r0_6) (View.ld x0 r0_7) (View.ld x1 r0_8)) (View.ld x0 r0_9) (View.ld x1 r0_10) (View.ld x0 r0_11) (View.ld x1 r0_12) (View.ld x0 r0_13) (View.ld x1 r0_14) (View.ld x3 r0_15)) x = blkOut x0 x1 x2 x3 (r0_15.emb x) := by
  obtain ⟨tb, xx, c, rfl⟩ : ∃ (tb : Fin 16) (xx : Fin 15) (c : Fin 512), x = ix3 tb xx c := ⟨x 0, x 1, x 2, eq_ix3 x⟩
  refine (congrFun (piece_0 _ _ _ _ _ _ _ _ _ _ _ _ _ _ _ _) _).trans ?_
  refine (rowOut_eq_hexAt x0 x1 (View.ld x2 r0_0) x3 0 ![View.ld x0 r0_1, View.ld x0 r0_3, View.ld x0 r0_5, View.ld x0 r0_7, View.ld x0 r0_9, View.ld x0 r0_11, View.ld x0 r0_13] ![View.ld x1 r0_2, View.ld x1 r0_4, View.ld x1 r0_6, View.ld x1 r0_8, View.ld x1 r0_10, View.ld x1 r0_12, View.ld x1 r0_14] (View.ld x3 r0_15)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 0 (by omega) rfl (by omega)

/-- Row 1 of the block: what the body stores there is the specification on that row's cells. -/
theorem agree_1 (x : S16x15x512.Idx) :
    (k0_pay7 (k0_pay2 (View.ld x2 r0_0)) (k0_pay5 (View.ld x0 r0_7) (View.ld x1 r0_2) (View.ld x0 r0_9) (View.ld x1 r0_4) (View.ld x0 r0_11) (View.ld x1 r0_6) (View.ld x0 r0_13) (View.ld x1 r0_8)) (k0_pay6 (View.ld x0 r0_16) (View.ld x1 r0_10)) (View.ld x0 r0_17) (View.ld x1 r0_12) (View.ld x0 r0_18) (View.ld x1 r0_14) (View.ld x3 r0_19)) x = blkOut x0 x1 x2 x3 (r0_19.emb x) := by
  obtain ⟨tb, xx, c, rfl⟩ : ∃ (tb : Fin 16) (xx : Fin 15) (c : Fin 512), x = ix3 tb xx c := ⟨x 0, x 1, x 2, eq_ix3 x⟩
  refine (congrFun (piece_1 _ _ _ _ _ _ _ _ _ _ _ _ _ _ _ _) _).trans ?_
  refine (rowOut_eq_hexAt x0 x1 (View.ld x2 r0_0) x3 1 ![View.ld x0 r0_7, View.ld x0 r0_9, View.ld x0 r0_11, View.ld x0 r0_13, View.ld x0 r0_16, View.ld x0 r0_17, View.ld x0 r0_18] ![View.ld x1 r0_2, View.ld x1 r0_4, View.ld x1 r0_6, View.ld x1 r0_8, View.ld x1 r0_10, View.ld x1 r0_12, View.ld x1 r0_14] (View.ld x3 r0_19)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 1 (by omega) rfl (by omega)

/-- Row 2 of the block: what the body stores there is the specification on that row's cells. -/
theorem agree_2 (x : S16x15x512.Idx) :
    (k0_pay12 (k0_pay2 (View.ld x2 r0_0)) (k0_pay9 (k0_pay8 (View.ld x0 r0_11) (View.ld x1 r0_2)) (View.ld x0 r0_13) (View.ld x1 r0_4) (View.ld x0 r0_20) (View.ld x1 r0_6) (View.ld x0 r0_17) (View.ld x1 r0_8) (View.ld x0 r0_18) (View.ld x1 r0_10)) (k0_pay10 (View.ld x0 r0_21)) (k0_pay11 (View.ld x1 r0_12)) (View.ld x0 r0_22) (View.ld x1 r0_14) (View.ld x3 r0_23)) x = blkOut x0 x1 x2 x3 (r0_23.emb x) := by
  obtain ⟨tb, xx, c, rfl⟩ : ∃ (tb : Fin 16) (xx : Fin 15) (c : Fin 512), x = ix3 tb xx c := ⟨x 0, x 1, x 2, eq_ix3 x⟩
  refine (congrFun (piece_2 _ _ _ _ _ _ _ _ _ _ _ _ _ _ _ _) _).trans ?_
  refine (rowOut_eq_hexAt x0 x1 (View.ld x2 r0_0) x3 2 ![View.ld x0 r0_11, View.ld x0 r0_13, View.ld x0 r0_20, View.ld x0 r0_17, View.ld x0 r0_18, View.ld x0 r0_21, View.ld x0 r0_22] ![View.ld x1 r0_2, View.ld x1 r0_4, View.ld x1 r0_6, View.ld x1 r0_8, View.ld x1 r0_10, View.ld x1 r0_12, View.ld x1 r0_14] (View.ld x3 r0_23)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 2 (by omega) rfl (by omega)

/-- Row 3 of the block: what the body stores there is the specification on that row's cells. -/
theorem agree_3 (x : S16x15x512.Idx) :
    (k0_pay16 (k0_pay2 (View.ld x2 r0_0)) (k0_pay14 (k0_pay13 (View.ld x0 r0_17) (View.ld x1 r0_2) (View.ld x0 r0_18) (View.ld x1 r0_4)) (View.ld x0 r0_21) (View.ld x1 r0_6) (View.ld x0 r0_22) (View.ld x1 r0_8) (View.ld x0 r0_24) (View.ld x1 r0_10) (View.ld x0 r0_25) (View.ld x1 r0_12)) (k0_pay15 (View.ld x0 r0_26)) (View.ld x1 r0_14) (View.ld x3 r0_27)) x = blkOut x0 x1 x2 x3 (r0_27.emb x) := by
  obtain ⟨tb, xx, c, rfl⟩ : ∃ (tb : Fin 16) (xx : Fin 15) (c : Fin 512), x = ix3 tb xx c := ⟨x 0, x 1, x 2, eq_ix3 x⟩
  refine (congrFun (piece_3 _ _ _ _ _ _ _ _ _ _ _ _ _ _ _ _) _).trans ?_
  refine (rowOut_eq_hexAt x0 x1 (View.ld x2 r0_0) x3 3 ![View.ld x0 r0_17, View.ld x0 r0_18, View.ld x0 r0_21, View.ld x0 r0_22, View.ld x0 r0_24, View.ld x0 r0_25, View.ld x0 r0_26] ![View.ld x1 r0_2, View.ld x1 r0_4, View.ld x1 r0_6, View.ld x1 r0_8, View.ld x1 r0_10, View.ld x1 r0_12, View.ld x1 r0_14] (View.ld x3 r0_27)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 3 (by omega) rfl (by omega)

/-- Row 4 of the block: what the body stores there is the specification on that row's cells. -/
theorem agree_4 (x : S16x15x512.Idx) :
    (k0_pay22 (k0_pay20 (k0_pay2 (View.ld x2 r0_0)) (k0_pay17 (View.ld x0 r0_21) (View.ld x1 r0_2) (View.ld x0 r0_22) (View.ld x1 r0_4)) (k0_pay18 (View.ld x0 r0_28)) (k0_pay19 (View.ld x1 r0_6)) (constant S240x512 .f32 0x00000000#32) (View.ld x0 r0_25) (View.ld x1 r0_8) (View.ld x0 r0_26) (View.ld x1 r0_10) (View.ld x0 r0_29) (View.ld x1 r0_12) (View.ld x0 r0_30) (View.ld x1 r0_14)) (k0_pay21 (k0_pay2 (View.ld x2 r0_0)) (k0_pay17 (View.ld x0 r0_21) (View.ld x1 r0_2) (View.ld x0 r0_22) (View.ld x1 r0_4)) (k0_pay18 (View.ld x0 r0_28)) (k0_pay19 (View.ld x1 r0_6)) (constant S240x512 .f32 0x00000000#32) (View.ld x0 r0_25) (View.ld x1 r0_8) (View.ld x0 r0_26) (View.ld x1 r0_10) (View.ld x0 r0_29) (View.ld x1 r0_12) (View.ld x0 r0_30) (View.ld x1 r0_14)) (Scalar.ofBits .f32 0x3C23D70A#32) (View.ld x3 r0_31)) x = blkOut x0 x1 x2 x3 (r0_31.emb x) := by
  obtain ⟨tb, xx, c, rfl⟩ : ∃ (tb : Fin 16) (xx : Fin 15) (c : Fin 512), x = ix3 tb xx c := ⟨x 0, x 1, x 2, eq_ix3 x⟩
  refine (congrFun (piece_4 _ _ _ _ _ _ _ _ _ _ _ _ _ _ _ _) _).trans ?_
  refine (rowOut_eq_hexAt x0 x1 (View.ld x2 r0_0) x3 4 ![View.ld x0 r0_21, View.ld x0 r0_22, View.ld x0 r0_28, View.ld x0 r0_25, View.ld x0 r0_26, View.ld x0 r0_29, View.ld x0 r0_30] ![View.ld x1 r0_2, View.ld x1 r0_4, View.ld x1 r0_6, View.ld x1 r0_8, View.ld x1 r0_10, View.ld x1 r0_12, View.ld x1 r0_14] (View.ld x3 r0_31)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 4 (by omega) rfl (by omega)

/-- Row 5 of the block: what the body stores there is the specification on that row's cells. -/
theorem agree_5 (x : S16x15x512.Idx) :
    (k0_pay25 (k0_pay2 (View.ld x2 r0_0)) (k0_pay23 (View.ld x0 r0_25) (View.ld x1 r0_2) (View.ld x0 r0_26) (View.ld x1 r0_4) (View.ld x0 r0_29) (View.ld x1 r0_6)) (k0_pay24 (View.ld x0 r0_30)) (View.ld x1 r0_8) (View.ld x0 r0_32) (View.ld x1 r0_10) (View.ld x0 r0_33) (View.ld x1 r0_12) (View.ld x0 r0_34) (View.ld x1 r0_14) (View.ld x3 r0_35)) x = blkOut x0 x1 x2 x3 (r0_35.emb x) := by
  obtain ⟨tb, xx, c, rfl⟩ : ∃ (tb : Fin 16) (xx : Fin 15) (c : Fin 512), x = ix3 tb xx c := ⟨x 0, x 1, x 2, eq_ix3 x⟩
  refine (congrFun (piece_5 _ _ _ _ _ _ _ _ _ _ _ _ _ _ _ _) _).trans ?_
  refine (rowOut_eq_hexAt x0 x1 (View.ld x2 r0_0) x3 5 ![View.ld x0 r0_25, View.ld x0 r0_26, View.ld x0 r0_29, View.ld x0 r0_30, View.ld x0 r0_32, View.ld x0 r0_33, View.ld x0 r0_34] ![View.ld x1 r0_2, View.ld x1 r0_4, View.ld x1 r0_6, View.ld x1 r0_8, View.ld x1 r0_10, View.ld x1 r0_12, View.ld x1 r0_14] (View.ld x3 r0_35)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 5 (by omega) rfl (by omega)

/-- Row 6 of the block: what the body stores there is the specification on that row's cells. -/
theorem agree_6 (x : S16x15x512.Idx) :
    (k0_pay28 (k0_pay2 (View.ld x2 r0_0)) (k0_pay26 (View.ld x0 r0_29) (View.ld x1 r0_2) (View.ld x0 r0_30) (View.ld x1 r0_4) (View.ld x0 r0_36) (View.ld x1 r0_6) (View.ld x0 r0_33) (View.ld x1 r0_8)) (k0_pay27 (View.ld x0 r0_34)) (View.ld x1 r0_10) (View.ld x0 r0_37) (View.ld x1 r0_12) (View.ld x0 r0_38) (View.ld x1 r0_14) (View.ld x3 r0_39)) x = blkOut x0 x1 x2 x3 (r0_39.emb x) := by
  obtain ⟨tb, xx, c, rfl⟩ : ∃ (tb : Fin 16) (xx : Fin 15) (c : Fin 512), x = ix3 tb xx c := ⟨x 0, x 1, x 2, eq_ix3 x⟩
  refine (congrFun (piece_6 _ _ _ _ _ _ _ _ _ _ _ _ _ _ _ _) _).trans ?_
  refine (rowOut_eq_hexAt x0 x1 (View.ld x2 r0_0) x3 6 ![View.ld x0 r0_29, View.ld x0 r0_30, View.ld x0 r0_36, View.ld x0 r0_33, View.ld x0 r0_34, View.ld x0 r0_37, View.ld x0 r0_38] ![View.ld x1 r0_2, View.ld x1 r0_4, View.ld x1 r0_6, View.ld x1 r0_8, View.ld x1 r0_10, View.ld x1 r0_12, View.ld x1 r0_14] (View.ld x3 r0_39)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 6 (by omega) rfl (by omega)

/-- Row 7 of the block: what the body stores there is the specification on that row's cells. -/
theorem agree_7 (x : S16x15x512.Idx) :
    (k0_pay32 (k0_pay2 (View.ld x2 r0_0)) (k0_pay30 (k0_pay29 (View.ld x0 r0_33)) (View.ld x1 r0_2) (View.ld x0 r0_34) (View.ld x1 r0_4) (View.ld x0 r0_37) (View.ld x1 r0_6) (View.ld x0 r0_38) (View.ld x1 r0_8) (View.ld x0 r0_40) (View.ld x1 r0_10)) (k0_pay31 (View.ld x0 r0_41)) (View.ld x1 r0_12) (View.ld x0 r0_42) (View.ld x1 r0_14) (View.ld x3 r0_43)) x = blkOut x0 x1 x2 x3 (r0_43.emb x) := by
  obtain ⟨tb, xx, c, rfl⟩ : ∃ (tb : Fin 16) (xx : Fin 15) (c : Fin 512), x = ix3 tb xx c := ⟨x 0, x 1, x 2, eq_ix3 x⟩
  refine (congrFun (piece_7 _ _ _ _ _ _ _ _ _ _ _ _ _ _ _ _) _).trans ?_
  refine (rowOut_eq_hexAt x0 x1 (View.ld x2 r0_0) x3 7 ![View.ld x0 r0_33, View.ld x0 r0_34, View.ld x0 r0_37, View.ld x0 r0_38, View.ld x0 r0_40, View.ld x0 r0_41, View.ld x0 r0_42] ![View.ld x1 r0_2, View.ld x1 r0_4, View.ld x1 r0_6, View.ld x1 r0_8, View.ld x1 r0_10, View.ld x1 r0_12, View.ld x1 r0_14] (View.ld x3 r0_43)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 7 (by omega) rfl (by omega)

/-- Row 8 of the block: what the body stores there is the specification on that row's cells. -/
theorem agree_8 (x : S16x15x512.Idx) :
    (k0_pay36 (k0_pay2 (View.ld x2 r0_0)) (k0_pay35 (k0_pay33 (View.ld x0 r0_37) (View.ld x1 r0_2)) (k0_pay34 (View.ld x0 r0_38)) (View.ld x1 r0_4) (View.ld x0 r0_44) (View.ld x1 r0_6) (View.ld x0 r0_41) (View.ld x1 r0_8) (View.ld x0 r0_42) (View.ld x1 r0_10) (View.ld x0 r0_45) (View.ld x1 r0_12)) (View.ld x0 r0_46) (View.ld x1 r0_14) (View.ld x3 r0_47)) x = blkOut x0 x1 x2 x3 (r0_47.emb x) := by
  obtain ⟨tb, xx, c, rfl⟩ : ∃ (tb : Fin 16) (xx : Fin 15) (c : Fin 512), x = ix3 tb xx c := ⟨x 0, x 1, x 2, eq_ix3 x⟩
  refine (congrFun (piece_8 _ _ _ _ _ _ _ _ _ _ _ _ _ _ _ _) _).trans ?_
  refine (rowOut_eq_hexAt x0 x1 (View.ld x2 r0_0) x3 8 ![View.ld x0 r0_37, View.ld x0 r0_38, View.ld x0 r0_44, View.ld x0 r0_41, View.ld x0 r0_42, View.ld x0 r0_45, View.ld x0 r0_46] ![View.ld x1 r0_2, View.ld x1 r0_4, View.ld x1 r0_6, View.ld x1 r0_8, View.ld x1 r0_10, View.ld x1 r0_12, View.ld x1 r0_14] (View.ld x3 r0_47)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 8 (by omega) rfl (by omega)

/-- Row 9 of the block: what the body stores there is the specification on that row's cells. -/
theorem agree_9 (x : S16x15x512.Idx) :
    (k0_pay40 (k0_pay2 (View.ld x2 r0_0)) (k0_pay39 (k0_pay37 (View.ld x0 r0_41) (View.ld x1 r0_2) (View.ld x0 r0_42) (View.ld x1 r0_4)) (k0_pay38 (View.ld x0 r0_45)) (View.ld x1 r0_6) (View.ld x0 r0_46) (View.ld x1 r0_8) (View.ld x0 r0_48) (View.ld x1 r0_10) (View.ld x0 r0_49) (View.ld x1 r0_12) (View.ld x0 r0_50) (View.ld x1 r0_14)) (View.ld x3 r0_51)) x = blkOut x0 x1 x2 x3 (r0_51.emb x) := by
  obtain ⟨tb, xx, c, rfl⟩ : ∃ (tb : Fin 16) (xx : Fin 15) (c : Fin 512), x = ix3 tb xx c := ⟨x 0, x 1, x 2, eq_ix3 x⟩
  refine (congrFun (piece_9 _ _ _ _ _ _ _ _ _ _ _ _ _ _ _ _) _).trans ?_
  refine (rowOut_eq_hexAt x0 x1 (View.ld x2 r0_0) x3 9 ![View.ld x0 r0_41, View.ld x0 r0_42, View.ld x0 r0_45, View.ld x0 r0_46, View.ld x0 r0_48, View.ld x0 r0_49, View.ld x0 r0_50] ![View.ld x1 r0_2, View.ld x1 r0_4, View.ld x1 r0_6, View.ld x1 r0_8, View.ld x1 r0_10, View.ld x1 r0_12, View.ld x1 r0_14] (View.ld x3 r0_51)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 9 (by omega) rfl (by omega)

/-- Row 10 of the block: what the body stores there is the specification on that row's cells. -/
theorem agree_10 (x : S16x15x512.Idx) :
    (k0_pay1 (k0_pay42 (k0_pay2 (View.ld x2 r0_0)) (k0_pay41 (View.ld x0 r0_45) (View.ld x1 r0_2) (View.ld x0 r0_46) (View.ld x1 r0_4) (View.ld x0 r0_52) (View.ld x1 r0_6)) (View.ld x0 r0_49) (View.ld x1 r0_8) (View.ld x0 r0_50) (View.ld x1 r0_10) (View.ld x0 r0_53) (View.ld x1 r0_12) (View.ld x0 r0_54) (View.ld x1 r0_14)) (View.ld x3 r0_55)) x = blkOut x0 x1 x2 x3 (r0_55.emb x) := by
  obtain ⟨tb, xx, c, rfl⟩ : ∃ (tb : Fin 16) (xx : Fin 15) (c : Fin 512), x = ix3 tb xx c := ⟨x 0, x 1, x 2, eq_ix3 x⟩
  refine (congrFun (piece_10 _ _ _ _ _ _ _ _ _ _ _ _ _ _ _ _) _).trans ?_
  refine (rowOut_eq_hexAt x0 x1 (View.ld x2 r0_0) x3 10 ![View.ld x0 r0_45, View.ld x0 r0_46, View.ld x0 r0_52, View.ld x0 r0_49, View.ld x0 r0_50, View.ld x0 r0_53, View.ld x0 r0_54] ![View.ld x1 r0_2, View.ld x1 r0_4, View.ld x1 r0_6, View.ld x1 r0_8, View.ld x1 r0_10, View.ld x1 r0_12, View.ld x1 r0_14] (View.ld x3 r0_55)
    (fun j tb x k => by fin_cases j <;> exact ld3 x0 _ _ _ _ tb x k tb _ k (by omega) rfl (by omega))
    (fun j k c => by fin_cases j <;> exact ld2 x1 _ _ _ k c _ c rfl (by omega))
    (fun tb x c => ld3 x3 _ _ _ _ tb x c tb _ c (by omega) rfl (by omega)) tb xx c).trans ?_
  exact blkOut_emb x0 x1 x2 x3 _ _ _ _ tb xx c 10 (by omega) rfl (by omega)

/-- The output buffer after the body is the specification read on the block. -/
theorem out0_4_eq : out0_4 (F := Ideal) x0 x1 x2 x3 = blkOut x0 x1 x2 x3 := by
  funext y
  unfold out0_4
  refine View.canon_apply_of_pieces (Val := Elt Ideal) (blkOut x0 x1 x2 x3) _ ?_ y (cover0_4 _ _ _ _ _ _ _ _ _ _ _ y)
  exact List.forall_mem_cons.mpr ⟨agree_10 x0 x1 x2 x3, List.forall_mem_cons.mpr ⟨agree_9 x0 x1 x2 x3, List.forall_mem_cons.mpr ⟨agree_8 x0 x1 x2 x3, List.forall_mem_cons.mpr ⟨agree_7 x0 x1 x2 x3, List.forall_mem_cons.mpr ⟨agree_6 x0 x1 x2 x3, List.forall_mem_cons.mpr ⟨agree_5 x0 x1 x2 x3, List.forall_mem_cons.mpr ⟨agree_4 x0 x1 x2 x3, List.forall_mem_cons.mpr ⟨agree_3 x0 x1 x2 x3, List.forall_mem_cons.mpr ⟨agree_2 x0 x1 x2 x3, List.forall_mem_cons.mpr ⟨agree_1 x0 x1 x2 x3, List.forall_mem_cons.mpr ⟨agree_0 x0 x1 x2 x3, fun _ h => absurd h List.not_mem_nil⟩⟩⟩⟩⟩⟩⟩⟩⟩⟩⟩

end Cert.KernelIdeal.Block

end
-- ==== Proof.KernelArray.lean ====
/-
  From the blocks to the whole output array.

  The launch has 16 grid points; point t works on batch entries 16 t .. 16 t + 15. Its block of the padded input and of
  the residual are those 16 batch entries of the whole arrays, the weight and the bias row are the same whole arrays at
  every point, and what it writes back is the layer's specification on its 16 batch entries. The specification at a
  batch entry reads only that batch entry, so block t of the specification of the whole arrays IS the specification of
  the blocks; the 16 blocks tile the 256 batch entries, so the output array ends as the specification of the whole arrays.
-/
import proofs.«144630_j18339510353957_2_alg».proof.Proof.Gen.KernelIdeal.Value
import proofs.«144630_j18339510353957_2_alg».proof.Proof.KernelBlock

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Cert.HexConv
open Idealize.ShloMosaic.Pipeline (Dat)

/-- Batch entry tb of the block of grid point T. -/
def entry (T : Fin 16) (tb : Fin 16) : Fin 256 := ⟨16 * T.val + tb.val, by have := T.isLt; have := tb.isLt; omega⟩

/-- The specification reads one batch entry only: on blocks that are 16 consecutive batch entries of the whole arrays
    (the weight and the bias whole) it is the specification of the whole arrays at those batch entries. -/
theorem hexAt_block (P : S256x221x512.Idx → EReal) (W : S3584x512.Idx → EReal) (b : (⟨1, ![512]⟩ : Shape).Idx → EReal)
    (X : S256x165x512.Idx → EReal)
    (p0 : Vec Ideal S16x221x512 .bf16) (p1 : Vec Ideal S3584x512 .bf16) (p2 : Vec Ideal S1x512 .f32) (p3 : Vec Ideal S16x165x512 .f32)
    (T : Fin 16)
    (h0 : ∀ (tb : Fin 16) (n : Fin 221) (k : Fin 512), p0 (ix3 tb n k) = P (ix3 (entry T tb) n k))
    (h1 : ∀ (q : Fin 3584) (c : Fin 512), p1 (ix2 q c) = W (ix2 q c))
    (h2 : ∀ c : Fin 512, p2 (ix2 0 c) = b (ix1 c))
    (h3 : ∀ (tb : Fin 16) (n : Fin 165) (c : Fin 512), p3 (ix3 tb n c) = X (ix3 (entry T tb) n c))
    (tb : Fin 16) (n : Fin 165) (c : Fin 512) :
    hexAt p0 p1 (fun i => p2 (ix2 0 (i 0))) p3 tb n c = hexAt P W b X (entry T tb) n c := by
  unfold hexAt
  simp only [h0, h1, h2, h3]

variable (m : (ℓ : Loc nD τ sig) → Buf (Elt Ideal) ℓ) (ρ : Dev nD → PrngReg)

/-- The printed index maps, decided over the 16 grid points: the padded input, the residual and the output move with
    the grid point along the batch axis; the weight and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ t.val < 16 :=
  (by decide +kernel : ∀ t : Fin grid0.N, _)

/-- The grid point as a number below 16. -/
def pt (t : Fin cfg0.N) : Fin 16 := ⟨t.val, (idx_facts t).2.2.2.2.2.2.2.2.2.2.2.2.2⟩

/-- A [16, 221, 512] block of point t read through the padded input's window: batch entries 16 t .. 16 t + 15 of
    whatever array the window is on. -/
theorem blk0_read (t : Fin cfg0.N) (A : ((cfg0.win 0).blk t).view.ty.Contents (Elt Ideal))
    (tb : Fin 16) (n : Fin 221) (k : Fin 512) :
    ((cfg0.win 0).blk t).view.read (Elt Ideal) A (ix3 tb n k) = A (ix3 (entry (pt t) tb) n k) := by
  obtain ⟨e0, e1, e2, -⟩ := idx_facts t
  show A (((cfg0.win 0).blk t).view.emb (ix3 tb n k)) = A (ix3 (entry (pt t) tb) n k)
  refine congrArg A (funext fun a => Fin.ext ?_)
  match a with
  | ⟨0, _⟩ => show win0_0.index t (0 : Fin 3) * 16 + 1 * tb.val = 16 * t.val + tb.val; omega
  | ⟨1, _⟩ => show win0_0.index t (1 : Fin 3) * 221 + 1 * n.val = n.val; omega
  | ⟨2, _⟩ => show win0_0.index t (2 : Fin 3) * 512 + 1 * k.val = k.val; omega

/-- The weight's window reads the whole array at every point. -/
theorem blk1_read (t : Fin cfg0.N) (A : ((cfg0.win 1).blk t).view.ty.Contents (Elt Ideal)) (q : Fin 3584) (k : Fin 512) :
    ((cfg0.win 1).blk t).view.read (Elt Ideal) A (ix2 q k) = A (ix2 q k) := by
  obtain ⟨-, -, -, e0, e1, -⟩ := idx_facts t
  show A (((cfg0.win 1).blk t).view.emb (ix2 q k)) = A (ix2 q k)
  refine congrArg A (funext fun a => Fin.ext ?_)
  match a with
  | ⟨0, _⟩ => show win0_1.index t (0 : Fin 2) * 3584 + 1 * q.val = q.val; omega
  | ⟨1, _⟩ => show win0_1.index t (1 : Fin 2) * 512 + 1 * k.val = k.val; omega

/-- The bias row's window reads the whole row at every point. -/
theorem blk2_read (t : Fin cfg0.N) (A : ((cfg0.win 2).blk t).view.ty.Contents (Elt Ideal)) (q : Fin 1) (k : Fin 512) :
    ((cfg0.win 2).blk t).view.read (Elt Ideal) A (ix2 q k) = A (ix2 q k) := by
  obtain ⟨-, -, -, -, -, e0, e1, -⟩ := idx_facts t
  show A (((cfg0.win 2).blk t).view.emb (ix2 q k)) = A (ix2 q k)
  refine congrArg A (funext fun a => Fin.ext ?_)
  match a with
  | ⟨0, _⟩ => show win0_2.index t (0 : Fin 2) * 1 + 1 * q.val = q.val; omega
  | ⟨1, _⟩ => show win0_2.index t (1 : Fin 2) * 512 + 1 * k.val = k.val; omega

/-- A [16, 165, 512] block of point t read through the residual's window: batch entries 16 t .. 16 t + 15. -/
theorem blk3_read (t : Fin cfg0.N) (A : ((cfg0.win 3).blk t).view.ty.Contents (Elt Ideal))
    (tb : Fin 16) (n : Fin 165) (k : Fin 512) :
    ((cfg0.win 3).blk t).view.read (Elt Ideal) A (ix3 tb n k) = A (ix3 (entry (pt t) tb) n k) := by
  obtain ⟨-, -, -, -, -, -, -, e0, e1, e2, -⟩ := idx_facts t
  show A (((cfg0.win 3).blk t).view.emb (ix3 tb n k)) = A (ix3 (entry (pt t) tb) n k)
  refine congrArg A (funext fun a => Fin.ext ?_)
  match a with
  | ⟨0, _⟩ => show win0_3.index t (0 : Fin 3) * 16 + 1 * tb.val = 16 * t.val + tb.val; omega
  | ⟨1, _⟩ => show win0_3.index t (1 : Fin 3) * 165 + 1 * n.val = n.val; omega
  | ⟨2, _⟩ => show win0_3.index t (2 : Fin 3) * 512 + 1 * k.val = k.val; omega

/-- The four arrays the windows are on, as the launch finds them. -/
abbrev arrP (c : Dev nD) : S256x221x512.Idx → EReal := V m c (Pipeline.arrRef spec0 0)
abbrev arrW (c : Dev nD) : S3584x512.Idx → EReal := V m c (Pipeline.arrRef spec0 1)
abbrev arrB (c : Dev nD) : S1x512.Idx → EReal := V m c (Pipeline.arrRef spec0 2)
abbrev arrX (c : Dev nD) : S256x165x512.Idx → EReal := V m c (Pipeline.arrRef spec0 3)

theorem iblk0_apply (c : Dev nD) (t : Fin cfg0.N) (tb : Fin 16) (n : Fin 221) (k : Fin 512) :
    iblk m c 0 t (ix3 tb n k) = arrP m c (ix3 (entry (pt t) tb) n k) :=
  blk0_read t (V m c (Pipeline.arrRef spec0 0)) tb n k

theorem iblk1_apply (c : Dev nD) (t : Fin cfg0.N) (q : Fin 3584) (k : Fin 512) :
    iblk m c 1 t (ix2 q k) = arrW m c (ix2 q k) :=
  blk1_read t (V m c (Pipeline.arrRef spec0 1)) q k

theorem iblk2_apply (c : Dev nD) (t : Fin cfg0.N) (q : Fin 1) (k : Fin 512) :
    iblk m c 2 t (ix2 q k) = arrB m c (ix2 q k) :=
  blk2_read t (V m c (Pipeline.arrRef spec0 2)) q k

theorem iblk3_apply (c : Dev nD) (t : Fin cfg0.N) (tb : Fin 16) (n : Fin 165) (k : Fin 512) :
    iblk m c 3 t (ix3 tb n k) = arrX m c (ix3 (entry (pt t) tb) n k) :=
  blk3_read t (V m c (Pipeline.arrRef spec0 3)) tb n k

/-- The specification of the arrays as the launch finds them. -/
def arrOut (c : Dev nD) : S256x165x512.Idx → EReal :=
  hexOut (arrP m c) (arrW m c) (fun i => arrB m c (ix2 0 (i 0))) (arrX m c)

/-- What point t writes back is block t of the specification of the whole arrays. -/
theorem flushed_eq (c : Dev nD) (t : Fin cfg0.N) :
    (dats m 0 c).flushed 4 t = ((cfg0.win 4).blk t).view.read (Elt Ideal) (arrOut m c) := by
  rw [Value.flushed4 m c t, Block.out0_4_eq (iblk m c 0 t) (iblk m c 1 t) (iblk m c 2 t) (iblk m c 3 t)]
  funext j
  obtain ⟨tb, n, cc, rfl⟩ : ∃ (tb : Fin 16) (n : Fin 165) (cc : Fin 512), j = ix3 tb n cc := ⟨j 0, j 1, j 2, eq_ix3 j⟩
  show Block.blkOut (iblk m c 0 t) (iblk m c 1 t) (iblk m c 2 t) (iblk m c 3 t) (ix3 tb n cc)
    = arrOut m c (((cfg0.win 4).blk t).view.emb (ix3 tb n cc))
  have e : ((cfg0.win 4).blk t).view.emb (ix3 tb n cc) = ix3 (entry (pt t) tb) n cc := by
    obtain ⟨-, -, -, -, -, -, -, -, -, -, e0, e1, e2, -⟩ := idx_facts t
    funext a
    apply Fin.ext
    match a with
    | ⟨0, _⟩ => show win0_4.index t (0 : Fin 3) * 16 + 1 * tb.val = 16 * t.val + tb.val; omega
    | ⟨1, _⟩ => show win0_4.index t (1 : Fin 3) * 165 + 1 * n.val = n.val; omega
    | ⟨2, _⟩ => show win0_4.index t (2 : Fin 3) * 512 + 1 * cc.val = cc.val; omega
  rw [e]
  unfold Block.blkOut arrOut
  rw [hexOut_ix3, hexOut_ix3]
  exact hexAt_block (arrP m c) (arrW m c) (fun i => arrB m c (ix2 0 (i 0))) (arrX m c)
    (iblk m c 0 t) (iblk m c 1 t) (iblk m c 2 t) (iblk m c 3 t) (pt t)
    (fun tb n k => iblk0_apply m c t tb n k) (fun q k => iblk1_apply m c t q k) (fun k => iblk2_apply m c t 0 k)
    (fun tb n k => iblk3_apply m c t tb n k) tb n cc

/-- An index of the output array is in point t's block iff each coordinate is in the block's range on its axis. -/
theorem mem_blk (t : Fin cfg0.N) (i : S256x165x512.Idx) :
    i ∈ ((cfg0.win 4).blk t).view.set ↔ ∀ a : Fin 3, win0_4.index t a * S16x165x512.size a ≤ (i a).val
      ∧ (i a).val < win0_4.index t a * S16x165x512.size a + S16x165x512.size a := by
  show i ∈ ((View.whole main_v10).slice (win0_4.rect t)).set ↔ _
  rw [View.set_slice_whole, Rect.mem_set_unit]
  exact Iff.rfl

/-- Every index of the output array lies in the block of the grid point of its batch entry. -/
theorem cover (i : S256x165x512.Idx) : ∃ t : Fin cfg0.N, (cfg0.win 4).flush t = true ∧ i ∈ ((cfg0.win 4).blk t).view.set := by
  have hi0 : (i 0).val < 256 := (i 0).isLt
  have hi1 : (i 1).val < 165 := (i 1).isLt
  have hi2 : (i 2).val < 512 := (i 2).isLt
  have hN : (i 0).val / 16 < cfg0.N := by show _ < grid0.N; rw [N_0]; omega
  refine ⟨⟨(i 0).val / 16, hN⟩, flush0_4 _, ?_⟩
  obtain ⟨-, -, -, -, -, -, -, -, -, -, e0, e1, e2, -⟩ := idx_facts ⟨(i 0).val / 16, hN⟩
  rw [mem_blk]
  intro a
  match a with
  | ⟨0, _⟩ =>
    show win0_4.index ⟨(i 0).val / 16, hN⟩ (0 : Fin 3) * 16 ≤ (i 0).val ∧ (i 0).val < win0_4.index ⟨(i 0).val / 16, hN⟩ (0 : Fin 3) * 16 + 16
    rw [e0]; show (i 0).val / 16 * 16 ≤ (i 0).val ∧ (i 0).val < (i 0).val / 16 * 16 + 16; omega
  | ⟨1, _⟩ =>
    show win0_4.index ⟨(i 0).val / 16, hN⟩ (1 : Fin 3) * 165 ≤ (i 1).val ∧ (i 1).val < win0_4.index ⟨(i 0).val / 16, hN⟩ (1 : Fin 3) * 165 + 165
    omega
  | ⟨2, _⟩ =>
    show win0_4.index ⟨(i 0).val / 16, hN⟩ (2 : Fin 3) * 512 ≤ (i 2).val ∧ (i 2).val < win0_4.index ⟨(i 0).val / 16, hN⟩ (2 : Fin 3) * 512 + 512
    omega

/-- The output array after the run is the specification of the arrays as the launch finds them. -/
theorem final (c : Dev nD) : (dats m 0 c).arrAt 4 cfg0.N = arrOut m c :=
  (dats m 0 c).arrAt_eq_of_cover 4 (arrOut m c) (fun t _ => flushed_eq m c t) cover

/-- The kernel's run: the result is the specification of the arrays as the launch finds them, the arguments unchanged. -/
theorem run_arr : θ_run defs (onTc (τ := τ) (main (F := Ideal))) ⟨m, fun _ => 0, ρ⟩ fun r => ∀ c : Dev nD,
      r.2.mem ((c : Thread nD τ).loc main_v10) = arrOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.KernelHost.lean ====
/-
  The arrays the launch finds.

  Before the launch the host pads the input (cast to the 16-bit format, which changes nothing on the extended reals):
  the [256, 165, 512] input is laid out as [256, 11, 15, 512] and written into the middle of a [256, 13, 17, 512] array of
  zeros, at rows 1..11 and cells 1..15, which is then laid out as [256, 221, 512]. The weight is cast, the bias is laid
  out as one row. The padded array is carried as ONE term of the input: nothing here looks inside it.
-/
import proofs.«144630_j18339510353957_2_alg».proof.Proof.KernelArray
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.ValueIdx Cert.HexConv Cert.KernelIdeal.Array Idealize.ShloMosaic.StableHlo

/-- The padded, flattened input as the kernel's program builds it. -/
def padK (x : FVec Ideal S256x165x512 .f32) : FVec Ideal S256x221x512 .bf16 :=
  shapeCast S256x221x512
    (Host.scatter scatter_S256x13x17x512_S2_S256x11x15x512_0123_n_12_0 (fun _ b => b)
      (broadcastInDim S256x13x17x512 ![] bcast_S_S256x13x17x512 (constant (F := Ideal) S_ .bf16 0x0000#16))
      (concatenate S2 0 [⟨S1, broadcastInDim S1 ![] bcast_S_S1 (constantI S_ 32 1#32)⟩,
        ⟨S1, broadcastInDim S1 ![] bcast_S_S1 (constantI S_ 32 1#32)⟩] concatenates_S1_S1_S2_d0)
      (shapeCast S256x11x15x512 (truncf .bf16 x bitsLt_bf16_f32) shapeCasts_S256x165x512_S256x11x15x512))
    shapeCasts_S256x13x17x512_S256x221x512

variable (m : (ℓ : Loc nD τ sig) → Buf (Elt Ideal) ℓ)

theorem V_padded (c : Dev nD) : arrP m c = padK (m ((c : Thread nD τ).loc main_arg0)) := by
  show (V m c main_v7 : S256x221x512.Idx → EReal) = _
  dsimp only [Gen.V, Gen.hostOps0]
  after_results
  rfl

theorem V_weight (c : Dev nD) : arrW m c = m ((c : Thread nD τ).loc main_arg1) := by
  show (V m c main_v8 : S3584x512.Idx → EReal) = _
  dsimp only [Gen.V, Gen.hostOps0]
  after_results
  rfl

theorem V_bias (c : Dev nD) :
    arrB m c = shapeCast S1x512 (m ((c : Thread nD τ).loc main_arg2)) shapeCasts_S512_S1x512 := by
  show (V m c main_v9 : S1x512.Idx → EReal) = _
  dsimp only [Gen.V, Gen.hostOps0]
  after_results
  rfl

/-- The bias row read at its one row is the bias. -/
theorem bias_row (b : FVec Ideal S512 .f32) :
    (fun i : (⟨1, ![512]⟩ : Shape).Idx => shapeCast S1x512 b shapeCasts_S512_S1x512 (ix2 0 (i 0))) = b := by
  funext i
  refine (shapeCast_apply _ _ _ i ?_).trans rfl
  rw [Shape.rowMajor_val_one, Shape.rowMajor_val_two]
  show (i 0).val = 0 * 512 + (i 0).val
  omega

/-- The specification of the arrays the launch finds is the specification of the padded input, the weight, the bias
    and the input. -/
theorem arrOut_eq (c : Dev nD) :
    arrOut m c = hexOut (padK (m ((c : Thread nD τ).loc main_arg0))) (m ((c : Thread nD τ).loc main_arg1))
      (m ((c : Thread nD τ).loc main_arg2)) (m ((c : Thread nD τ).loc main_arg0)) := by
  have hX : arrX m c = m ((c : Thread nD τ).loc main_arg0) := V_main_arg0 m c
  unfold arrOut
  rw [V_padded, V_weight, V_bias, hX, bias_row]

end Cert.KernelIdeal.Host

end
-- ==== Proof.RefRun.lean ====
/-
  The reference program as a straight line of host operations, and what it leaves in its result.

  The reference's entry point is twenty-seven operations and one call of the leaky rectifier, which is six operations and
  a call of the selection, itself one operation: thirty-four operations in all, listed here in the order they run, the
  two callees' operations over the buffers their calls name. Every weakly fair execution ends with the result buffer at
  the operations' composed term of the three argument arrays, and the arguments unchanged.

  The composed term is read off in four consecutive stretches of the line — the padding, the gather, the product with
  the bias, the rectifier with the residual sum — each as a function of what the stretch before it left, and written
  down once, as `refOut x W b`, in named pieces: the zero-padded and flattened input `padRef x`, the table `tblRef`, the
  gathered neighbour rows `gatheredWith`, the value before the rectifier `preActOf`, the rectifier `leakyWith`.
-/
import proofs.«144630_j18339510353957_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

section Ops

variable {F : FTy → Type} [FloatOps F]

/-- The first stretch: the table, and the input padded with zeros and flattened (eleven operations). -/
abbrev opsA : List (HloOp τ sig (Elt F)) :=
  [ nullary main_c (fun i => lit0 (S1155.rowMajor i)),
    reshape main_arg0 main_v0 rfl shapeCasts_S256x165x512_S256x11x15x512,
    nullary main_cst (constant S_ .f32 0x00000000#32),
    unary main_cst main_v1 (broadcastInDim S256x13x17x512 ![] bcast_S_S256x13x17x512 : (⟨S_, .f32⟩ : BufTy).Contents (Elt F) → (⟨S256x13x17x512, .f32⟩ : BufTy).Contents (Elt F)),
    nullary main_c_0 (constantI S_ 32 1#32),
    unary main_c_0 main_v2 (broadcastInDim S1 ![] bcast_S_S1 : (⟨S_, .i32⟩ : BufTy).Contents (Elt F) → (⟨S1, .i32⟩ : BufTy).Contents (Elt F)),
    nullary main_c_1 (constantI S_ 32 1#32),
    unary main_c_1 main_v3 (broadcastInDim S1 ![] bcast_S_S1 : (⟨S_, .i32⟩ : BufTy).Contents (Elt F) → (⟨S1, .i32⟩ : BufTy).Contents (Elt F)),
    binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v1 main_v4 main_v0 main_v5 ((fun x i u => Host.scatter scatter_S256x13x17x512_S2_S256x11x15x512_0123_n_12_0 (fun _ b => b) x i u) : (⟨S256x13x17x512, .f32⟩ : BufTy).Contents (Elt F) → (⟨S2, .i32⟩ : BufTy).Contents (Elt F) → (⟨S256x11x15x512, .f32⟩ : BufTy).Contents (Elt F) → (⟨S256x13x17x512, .f32⟩ : BufTy).Contents (Elt F)),
    reshape main_v5 main_v6 rfl shapeCasts_S256x13x17x512_S256x221x512 ]

/-- The second stretch: the start indices from the table, the gather, and its regrouping (ten operations). -/
abbrev opsB : List (HloOp τ sig (Elt F)) :=
  [ nullary main_c_2 (constantI S_ 32 0#32),
    unary main_c_2 main_v7 (broadcastInDim S1155 ![] bcast_S_S1155 : (⟨S_, .i32⟩ : BufTy).Contents (Elt F) → (⟨S1155, .i32⟩ : BufTy).Contents (Elt F)),
    binary main_c main_v7 main_v8 (cmpi .slt : (⟨S1155, .i32⟩ : BufTy).Contents (Elt F) → (⟨S1155, .i32⟩ : BufTy).Contents (Elt F) → (⟨S1155, .i1⟩ : BufTy).Contents (Elt F)),
    nullary main_c_3 (constantI S_ 32 221#32),
    unary main_c_3 main_v9 (broadcastInDim S1155 ![] bcast_S_S1155 : (⟨S_, .i32⟩ : BufTy).Contents (Elt F) → (⟨S1155, .i32⟩ : BufTy).Contents (Elt F)),
    binary main_c main_v9 main_v10 (addi : (⟨S1155, .i32⟩ : BufTy).Contents (Elt F) → (⟨S1155, .i32⟩ : BufTy).Contents (Elt F) → (⟨S1155, .i32⟩ : BufTy).Contents (Elt F)),
    ternary main_v8 main_v10 main_c main_v11 (select : (⟨S1155, .i1⟩ : BufTy).Contents (Elt F) → (⟨S1155, .i32⟩ : BufTy).Contents (Elt F) → (⟨S1155, .i32⟩ : BufTy).Contents (Elt F) → (⟨S1155, .i32⟩ : BufTy).Contents (Elt F)),
    unary main_v11 main_v12 (broadcastInDim S1155x1 ![0] bcast_S1155_S1155x1_0 : (⟨S1155, .i32⟩ : BufTy).Contents (Elt F) → (⟨S1155x1, .i32⟩ : BufTy).Contents (Elt F)),
    binary main_v6 main_v12 main_v13 ((fun x i => Host.gather gather_S256x221x512_S1155x1_S256x1155x512_02_1_n_n_1_1_2561512 x i) : (⟨S256x221x512, .f32⟩ : BufTy).Contents (Elt F) → (⟨S1155x1, .i32⟩ : BufTy).Contents (Elt F) → (⟨S256x1155x512, .f32⟩ : BufTy).Contents (Elt F)),
    reshape main_v13 main_v14 rfl shapeCasts_S256x1155x512_S256x165x3584 ]

/-- The third stretch: the product with the weight, the bias added, and the rectifier's slope (five operations). -/
abbrev opsC : List (HloOp τ sig (Elt F)) :=
  [ binary main_v14 main_arg1 main_v15 ((fun l r => Host.dotGeneral dot_S256x165x3584_S3584x512_S256x165x512_2_0_01_1_n_n none l r) : (⟨S256x165x3584, .f32⟩ : BufTy).Contents (Elt F) → (⟨S3584x512, .f32⟩ : BufTy).Contents (Elt F) → (⟨S256x165x512, .f32⟩ : BufTy).Contents (Elt F)),
    unary main_arg2 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S256x165x512 ![0, 1, 2] bcast_S1x1x512_S256x165x512_0_1_2 : (⟨S1x1x512, .f32⟩ : BufTy).Contents (Elt F) → (⟨S256x165x512, .f32⟩ : BufTy).Contents (Elt F)),
    binary main_v15 main_v17 main_v18 (addf : (⟨S256x165x512, .f32⟩ : BufTy).Contents (Elt F) → (⟨S256x165x512, .f32⟩ : BufTy).Contents (Elt F) → (⟨S256x165x512, .f32⟩ : BufTy).Contents (Elt F)),
    nullary main_cst_4 (constant S_ .f32 0x3C23D70A#32) ]

/-- The fourth stretch: the leaky rectifier's six operations, the selection, and the residual sum. -/
abbrev opsD : List (HloOp τ sig (Elt F)) :=
  [ TRef.nullary main_call0.cst (constant S_ .f32 0x00000000#32),
    TRef.unary main_call0.cst main_call0.v0 (broadcastInDim S256x165x512 ![] bcast_S_S256x165x512),
    TRef.binary (.of main_v18) main_call0.v0 main_call0.v1 (cmpf .oge),
    TRef.unary (.of main_cst_4) main_call0.v2 id,
    TRef.unary main_call0.v2 main_call0.v3 (broadcastInDim S256x165x512 ![] bcast_S_S256x165x512),
    TRef.binary main_call0.v3 (.of main_v18) main_call0.v4 mulf,
    TRef.ternary main_call0.v1 (.of main_v18) main_call0.v4 main_call0.call0.v0 select,
    binary main_arg0 main_v19 main_v20 (addf : (⟨S256x165x512, .f32⟩ : BufTy).Contents (Elt F) → (⟨S256x165x512, .f32⟩ : BufTy).Contents (Elt F) → (⟨S256x165x512, .f32⟩ : BufTy).Contents (Elt F)) ]

/-- The thirty-four operations, in order. -/
abbrev ops : List (HloOp τ sig (Elt F)) :=
  [ nullary main_c (fun i => lit0 (S1155.rowMajor i)),
    reshape main_arg0 main_v0 rfl shapeCasts_S256x165x512_S256x11x15x512,
    nullary main_cst (constant S_ .f32 0x00000000#32),
    unary main_cst main_v1 (broadcastInDim S256x13x17x512 ![] bcast_S_S256x13x17x512 : (⟨S_, .f32⟩ : BufTy).Contents (Elt F) → (⟨S256x13x17x512, .f32⟩ : BufTy).Contents (Elt F)),
    nullary main_c_0 (constantI S_ 32 1#32),
    unary main_c_0 main_v2 (broadcastInDim S1 ![] bcast_S_S1 : (⟨S_, .i32⟩ : BufTy).Contents (Elt F) → (⟨S1, .i32⟩ : BufTy).Contents (Elt F)),
    nullary main_c_1 (constantI S_ 32 1#32),
    unary main_c_1 main_v3 (broadcastInDim S1 ![] bcast_S_S1 : (⟨S_, .i32⟩ : BufTy).Contents (Elt F) → (⟨S1, .i32⟩ : BufTy).Contents (Elt F)),
    binary main_v2 main_v3 main_v4 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v1 main_v4 main_v0 main_v5 ((fun x i u => Host.scatter scatter_S256x13x17x512_S2_S256x11x15x512_0123_n_12_0 (fun _ b => b) x i u) : (⟨S256x13x17x512, .f32⟩ : BufTy).Contents (Elt F) → (⟨S2, .i32⟩ : BufTy).Contents (Elt F) → (⟨S256x11x15x512, .f32⟩ : BufTy).Contents (Elt F) → (⟨S256x13x17x512, .f32⟩ : BufTy).Contents (Elt F)),
    reshape main_v5 main_v6 rfl shapeCasts_S256x13x17x512_S256x221x512,
    nullary main_c_2 (constantI S_ 32 0#32),
    unary main_c_2 main_v7 (broadcastInDim S1155 ![] bcast_S_S1155 : (⟨S_, .i32⟩ : BufTy).Contents (Elt F) → (⟨S1155, .i32⟩ : BufTy).Contents (Elt F)),
    binary main_c main_v7 main_v8 (cmpi .slt : (⟨S1155, .i32⟩ : BufTy).Contents (Elt F) → (⟨S1155, .i32⟩ : BufTy).Contents (Elt F) → (⟨S1155, .i1⟩ : BufTy).Contents (Elt F)),
    nullary main_c_3 (constantI S_ 32 221#32),
    unary main_c_3 main_v9 (broadcastInDim S1155 ![] bcast_S_S1155 : (⟨S_, .i32⟩ : BufTy).Contents (Elt F) → (⟨S1155, .i32⟩ : BufTy).Contents (Elt F)),
    binary main_c main_v9 main_v10 (addi : (⟨S1155, .i32⟩ : BufTy).Contents (Elt F) → (⟨S1155, .i32⟩ : BufTy).Contents (Elt F) → (⟨S1155, .i32⟩ : BufTy).Contents (Elt F)),
    ternary main_v8 main_v10 main_c main_v11 (select : (⟨S1155, .i1⟩ : BufTy).Contents (Elt F) → (⟨S1155, .i32⟩ : BufTy).Contents (Elt F) → (⟨S1155, .i32⟩ : BufTy).Contents (Elt F) → (⟨S1155, .i32⟩ : BufTy).Contents (Elt F)),
    unary main_v11 main_v12 (broadcastInDim S1155x1 ![0] bcast_S1155_S1155x1_0 : (⟨S1155, .i32⟩ : BufTy).Contents (Elt F) → (⟨S1155x1, .i32⟩ : BufTy).Contents (Elt F)),
    binary main_v6 main_v12 main_v13 ((fun x i => Host.gather gather_S256x221x512_S1155x1_S256x1155x512_02_1_n_n_1_1_2561512 x i) : (⟨S256x221x512, .f32⟩ : BufTy).Contents (Elt F) → (⟨S1155x1, .i32⟩ : BufTy).Contents (Elt F) → (⟨S256x1155x512, .f32⟩ : BufTy).Contents (Elt F)),
    reshape main_v13 main_v14 rfl shapeCasts_S256x1155x512_S256x165x3584,
    binary main_v14 main_arg1 main_v15 ((fun l r => Host.dotGeneral dot_S256x165x3584_S3584x512_S256x165x512_2_0_01_1_n_n none l r) : (⟨S256x165x3584, .f32⟩ : BufTy).Contents (Elt F) → (⟨S3584x512, .f32⟩ : BufTy).Contents (Elt F) → (⟨S256x165x512, .f32⟩ : BufTy).Contents (Elt F)),
    unary main_arg2 main_v16 (broadcastInDim S1x1x512 ![2] bcast_S512_S1x1x512_2 : (⟨S512, .f32⟩ : BufTy).Contents (Elt F) → (⟨S1x1x512, .f32⟩ : BufTy).Contents (Elt F)),
    unary main_v16 main_v17 (broadcastInDim S256x165x512 ![0, 1, 2] bcast_S1x1x512_S256x165x512_0_1_2 : (⟨S1x1x512, .f32⟩ : BufTy).Contents (Elt F) → (⟨S256x165x512, .f32⟩ : BufTy).Contents (Elt F)),
    binary main_v15 main_v17 main_v18 (addf : (⟨S256x165x512, .f32⟩ : BufTy).Contents (Elt F) → (⟨S256x165x512, .f32⟩ : BufTy).Contents (Elt F) → (⟨S256x165x512, .f32⟩ : BufTy).Contents (Elt F)),
    nullary main_cst_4 (constant S_ .f32 0x3C23D70A#32),
    TRef.nullary main_call0.cst (constant S_ .f32 0x00000000#32),
    TRef.unary main_call0.cst main_call0.v0 (broadcastInDim S256x165x512 ![] bcast_S_S256x165x512),
    TRef.binary (.of main_v18) main_call0.v0 main_call0.v1 (cmpf .oge),
    TRef.unary (.of main_cst_4) main_call0.v2 id,
    TRef.unary main_call0.v2 main_call0.v3 (broadcastInDim S256x165x512 ![] bcast_S_S256x165x512),
    TRef.binary main_call0.v3 (.of main_v18) main_call0.v4 mulf,
    TRef.ternary main_call0.v1 (.of main_v18) main_call0.v4 main_call0.call0.v0 select,
    binary main_arg0 main_v19 main_v20 (addf : (⟨S256x165x512, .f32⟩ : BufTy).Contents (Elt F) → (⟨S256x165x512, .f32⟩ : BufTy).Contents (Elt F) → (⟨S256x165x512, .f32⟩ : BufTy).Contents (Elt F)) ]

theorem ops_split : (ops : List (HloOp τ sig (Elt F))) = opsA ++ (opsB ++ (opsC ++ opsD)) := rfl

set_option maxRecDepth 1024 in
/-- The entry point is that straight line: the two callees unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-- From any memory with zero counters every weakly fair execution of the entry point terminates, and every buffer
    ends at the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Ops

/-! ## The composed term, in named pieces (read at the extended reals) -/

/-- The zero-padded, flattened input: the input cast to the 11 x 15 grid, written into the all-zero 13 x 17 grid at
    offset (1, 1), and the grid flattened to 221 cells. -/
def padRef (x : FVec Ideal S256x165x512 .f32) : FVec Ideal S256x221x512 .f32 :=
  shapeCast S256x221x512
    (Host.scatter scatter_S256x13x17x512_S2_S256x11x15x512_0123_n_12_0 (fun _ b => b)
      (broadcastInDim S256x13x17x512 ![] bcast_S_S256x13x17x512 (constant (F := Ideal) S_ .f32 0x00000000#32))
      (concatenate S2 0 [⟨S1, broadcastInDim S1 ![] bcast_S_S1 (constantI S_ 32 1#32)⟩,
        ⟨S1, broadcastInDim S1 ![] bcast_S_S1 (constantI S_ 32 1#32)⟩] concatenates_S1_S1_S2_d0)
      (shapeCast S256x11x15x512 x shapeCasts_S256x165x512_S256x11x15x512))
    shapeCasts_S256x13x17x512_S256x221x512

/-- The table of padded-cell numbers, one per (cell, neighbour) pair, in row-major order. -/
def tblRef : IVec S1155 32 := fun i => lit0 (S1155.rowMajor i)

/-- A table as a column of start indices, an entry below zero moved up by 221. -/
def idxOf (t : IVec S1155 32) : IVec S1155x1 32 :=
  broadcastInDim S1155x1 ![0] bcast_S1155_S1155x1_0
    (select (cmpi .slt t (broadcastInDim S1155 ![] bcast_S_S1155 (constantI S_ 32 0#32)))
      (addi t (broadcastInDim S1155 ![] bcast_S_S1155 (constantI S_ 32 221#32))) t)

/-- The rows of a padded array at a table's start indices, regrouped as seven rows of 512 channels per cell. -/
def gatheredWith (t : IVec S1155 32) (P : FVec Ideal S256x221x512 .f32) : FVec Ideal S256x165x3584 .f32 :=
  shapeCast S256x165x3584 (Host.gather gather_S256x221x512_S1155x1_S256x1155x512_02_1_n_n_1_1_2561512 P (idxOf t))
    shapeCasts_S256x1155x512_S256x165x3584

/-- The value before the rectifier: the product with the weight, plus the bias on every cell. -/
def preActOf (g : FVec Ideal S256x165x3584 .f32) (W : FVec Ideal S3584x512 .f32) (b : FVec Ideal S512 .f32) :
    FVec Ideal S256x165x512 .f32 :=
  addf (Host.dotGeneral dot_S256x165x3584_S3584x512_S256x165x512_2_0_01_1_n_n none g W)
    (broadcastInDim S256x165x512 ![0, 1, 2] bcast_S1x1x512_S256x165x512_0_1_2
      (broadcastInDim S1x1x512 ![2] bcast_S512_S1x1x512_2 b))

/-- The leaky rectifier with slope `s` on an array: the entry where it is at least zero, `s` times it elsewhere. -/
def leakyWith (s : FVec Ideal S_ .f32) (y : FVec Ideal S256x165x512 .f32) : FVec Ideal S256x165x512 .f32 :=
  select (cmpf .oge y (broadcastInDim S256x165x512 ![] bcast_S_S256x165x512 (constant (F := Ideal) S_ .f32 0x00000000#32))) y
    (mulf (broadcastInDim S256x165x512 ![] bcast_S_S256x165x512 (id s)) y)

/-- The reference's result as a function of its three arguments. -/
def refOut (x : FVec Ideal S256x165x512 .f32) (W : FVec Ideal S3584x512 .f32) (b : FVec Ideal S512 .f32) :
    FVec Ideal S256x165x512 .f32 :=
  addf x (leakyWith (constant (F := Ideal) S_ .f32 0x3C23D70A#32) (preActOf (gatheredWith tblRef (padRef x)) W b))

/-! ## The four stretches, each over what the one before left -/

section Stages

variable (V : Valuation τ sig (Elt Ideal))

theorem stageA_c : after (opsA (F := Ideal)) V (main_c : DevRef τ sig) = tblRef := by after_results; rfl
theorem stageA_v6 : after (opsA (F := Ideal)) V (main_v6 : DevRef τ sig) = padRef (V (main_arg0 : DevRef τ sig)) := by
  after_results; rfl
theorem stageA_arg0 : after (opsA (F := Ideal)) V (main_arg0 : DevRef τ sig) = V (main_arg0 : DevRef τ sig) := by after_results
theorem stageA_arg1 : after (opsA (F := Ideal)) V (main_arg1 : DevRef τ sig) = V (main_arg1 : DevRef τ sig) := by after_results
theorem stageA_arg2 : after (opsA (F := Ideal)) V (main_arg2 : DevRef τ sig) = V (main_arg2 : DevRef τ sig) := by after_results

theorem stageB_v14 : after (opsB (F := Ideal)) V (main_v14 : DevRef τ sig)
    = gatheredWith (V (main_c : DevRef τ sig)) (V (main_v6 : DevRef τ sig)) := by after_results; rfl
theorem stageB_arg0 : after (opsB (F := Ideal)) V (main_arg0 : DevRef τ sig) = V (main_arg0 : DevRef τ sig) := by after_results
theorem stageB_arg1 : after (opsB (F := Ideal)) V (main_arg1 : DevRef τ sig) = V (main_arg1 : DevRef τ sig) := by after_results
theorem stageB_arg2 : after (opsB (F := Ideal)) V (main_arg2 : DevRef τ sig) = V (main_arg2 : DevRef τ sig) := by after_results

theorem stageC_v18 : after (opsC (F := Ideal)) V (main_v18 : DevRef τ sig)
    = preActOf (V (main_v14 : DevRef τ sig)) (V (main_arg1 : DevRef τ sig)) (V (main_arg2 : DevRef τ sig)) := by
  after_results; rfl
theorem stageC_cst4 : after (opsC (F := Ideal)) V (main_cst_4 : DevRef τ sig) = constant (F := Ideal) S_ .f32 0x3C23D70A#32 := by
  after_results
theorem stageC_arg0 : after (opsC (F := Ideal)) V (main_arg0 : DevRef τ sig) = V (main_arg0 : DevRef τ sig) := by after_results
theorem stageC_arg1 : after (opsC (F := Ideal)) V (main_arg1 : DevRef τ sig) = V (main_arg1 : DevRef τ sig) := by after_results
theorem stageC_arg2 : after (opsC (F := Ideal)) V (main_arg2 : DevRef τ sig) = V (main_arg2 : DevRef τ sig) := by after_results

theorem stageD_v20 : after (opsD (F := Ideal)) V (main_v20 : DevRef τ sig)
    = addf (V (main_arg0 : DevRef τ sig)) (leakyWith (V (main_cst_4 : DevRef τ sig)) (V (main_v18 : DevRef τ sig))) := by
  after_results; rfl
theorem stageD_arg0 : after (opsD (F := Ideal)) V (main_arg0 : DevRef τ sig) = V (main_arg0 : DevRef τ sig) := by after_results
theorem stageD_arg1 : after (opsD (F := Ideal)) V (main_arg1 : DevRef τ sig) = V (main_arg1 : DevRef τ sig) := by after_results
theorem stageD_arg2 : after (opsD (F := Ideal)) V (main_arg2 : DevRef τ sig) = V (main_arg2 : DevRef τ sig) := by after_results

/-- The fold of the operations at the result buffer is `refOut` of the arguments' contents. -/
theorem out_eq : after (ops (F := Ideal)) V (main_v20 : DevRef τ sig)
    = refOut (V (main_arg0 : DevRef τ sig)) (V (main_arg1 : DevRef τ sig)) (V (main_arg2 : DevRef τ sig)) := by
  rw [ops_split, after_app, after_app, after_app, stageD_v20, stageC_arg0, stageC_cst4, stageC_v18, stageB_arg0, stageB_arg1,
    stageB_arg2, stageB_v14, stageA_arg0, stageA_arg1, stageA_arg2, stageA_c, stageA_v6]
  rfl

theorem arg0_eq : after (ops (F := Ideal)) V (main_arg0 : DevRef τ sig) = V (main_arg0 : DevRef τ sig) := by
  rw [ops_split, after_app, after_app, after_app, stageD_arg0, stageC_arg0, stageB_arg0, stageA_arg0]

theorem arg1_eq : after (ops (F := Ideal)) V (main_arg1 : DevRef τ sig) = V (main_arg1 : DevRef τ sig) := by
  rw [ops_split, after_app, after_app, after_app, stageD_arg1, stageC_arg1, stageB_arg1, stageA_arg1]

theorem arg2_eq : after (ops (F := Ideal)) V (main_arg2 : DevRef τ sig) = V (main_arg2 : DevRef τ sig) := by
  rw [ops_split, after_app, after_app, after_app, stageD_arg2, stageC_arg2, stageB_arg2, stageA_arg2]

end Stages

/-- Every weakly fair execution of the reference terminates with its result at `refOut` of the arguments and the
    arguments unchanged. -/
theorem run_refOut (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (out_eq _), (h c main_arg0).trans (arg0_eq _),
      (h c main_arg1).trans (arg1_eq _), (h c main_arg2).trans (arg2_eq _)⟩)
    (run_ops m ρ)

end Cert.ReferenceIdeal.RefValue

end
-- ==== Proof.Bridge.lean ====
/-
  The two programs pad the input in the same way.

  The kernel's program casts the input to the 16-bit format before it pads and pads with the 16-bit zero; the reference
  pads the input itself with the 32-bit zero. On the extended reals a cast is the identity and both zeros are 0, and the
  rest — the layout [256, 11, 15, 512], the write at rows 1..11 and cells 1..15 of the zero array, the layout
  [256, 221, 512] — is the same operation with the same parameters. So the two padded arrays are one array.
-/
import proofs.«144630_j18339510353957_2_alg».proof.Proof.KernelHost
import proofs.«144630_j18339510353957_2_alg».proof.Proof.RefRun
import Idealize.ShloMosaic.Lib.IdealHost

noncomputable section

namespace Cert.HexConv

open Idealize.ShloMosaic Idealize.ShloMosaic.ValueIdx

theorem zero_bf16_eq_f32 :
    (constant (F := Ideal) Cert.KernelIdeal.S_ .bf16 0x0000#16 : Cert.KernelIdeal.S_.Idx → EReal)
      = constant (F := Ideal) Cert.ReferenceIdeal.S_ .f32 0x00000000#32 := by
  funext i
  show Ideal.ofBits .bf16 0x0000#16 = Ideal.ofBits .f32 0x00000000#32
  rw [Ideal.ofBits_zero_bf16, Ideal.ofBits_zero_f32]

theorem pad_eq (x : (⟨3, ![256, 165, 512]⟩ : Shape).Idx → EReal) :
    (Cert.KernelIdeal.Host.padK x : (⟨3, ![256, 221, 512]⟩ : Shape).Idx → EReal) = Cert.ReferenceIdeal.RefValue.padRef x := by
  unfold Cert.KernelIdeal.Host.padK Cert.ReferenceIdeal.RefValue.padRef
  rw [zero_bf16_eq_f32]
  rfl

end Cert.HexConv

end
-- ==== Proof.LibStackDot.lean ====
/-
  A product of a stack of matrices with one matrix, read at an index, on the extended reals.

  For dimension numbers that describe the product of an A x B x K array with a K x N matrix (no batch axes; the left
  operand contracts its axis 2, the right operand its axis 0), entry (p, q, r) of the product is
      sum over k < K of  a (p, q, k) * b (k, r).
  Nothing of real arithmetic is used beyond `0 + x = x`, so the statement holds at the infinities too.
-/
import Idealize.ShloMosaic.Lib.ValueIdx
import Idealize.ShloMosaic.PureOps.Ideal.Laws

namespace Idealize.ShloMosaic.StackDot

open Idealize.ShloMosaic Idealize.ShloMosaic.ValueIdx

variable {sl sr so : Shape} (d : DotDims sl sr so)

/-- With no batch axes, the left index on a non-contracting axis reads the result index at that axis's place among the
    left operand's non-contracting axes. -/
theorem lhsIdx_val_nonContracting_at {nl : Fin sl.rank} (hb : d.lhsBatch = []) (hmem : nl ∈ d.lhsNonContracting)
    {p : Nat} (hp : d.lhsNonContracting.idxOf nl = p) (h0 : p < so.rank) (j : so.Idx) (k : d.contr.Idx) :
    (d.lhsIdx j k nl).val = (j ⟨p, h0⟩).val := by
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hp])

/-- With no batch axes, the right index on a non-contracting axis reads the result index after the left operand's
    non-contracting axes, at that axis's place among the right operand's. -/
theorem rhsIdx_val_nonContracting_at {nr : Fin sr.rank} (hlb : d.lhsBatch = []) (hrb : d.rhsBatch = [])
    (hmem : nr ∈ d.rhsNonContracting) {p : Nat} (hp : d.lhsNonContracting.length + d.rhsNonContracting.idxOf nr = p)
    (h0 : p < so.rank) (j : so.Idx) (k : d.contr.Idx) : (d.rhsIdx j k nr).val = (j ⟨p, h0⟩).val := by
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hp])

section Stack

variable {A B K N : Nat} (D : DotDims ⟨3, ![A, B, K]⟩ ⟨2, ![K, N]⟩ ⟨3, ![A, B, N]⟩)
  (hlc : D.lhsContracting = [2]) (hrc : D.rhsContracting = [0])
  (hln : D.lhsNonContracting = [0, 1]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q, r) and contraction position k is (p, q, k). -/
theorem lhsIdx_eq (p : Fin A) (q : Fin B) (r : Fin N) (k : Fin K) :
    D.lhsIdx (ix3 p q r) ((contrEquiv1 D K hr hs).symm k) = ix3 p q k := by
  funext a
  apply Fin.ext
  match a with
  | ⟨0, _⟩ =>
    exact lhsIdx_val_nonContracting_at D hlb (by rw [hln]; exact List.mem_cons_self) (p := 0) (by rw [hln]; rfl)
      (by show (0 : ℕ) < 3; omega) (ix3 p q r) _
  | ⟨1, _⟩ =>
    exact lhsIdx_val_nonContracting_at D hlb (by rw [hln]; exact List.mem_cons_of_mem _ (List.mem_singleton.mpr rfl)) (p := 1)
      (by rw [hln]; rfl) (by show (1 : ℕ) < 3; omega) (ix3 p q r) _
  | ⟨2, _⟩ => exact (D.lhsIdx_val_of_single hlc (ix3 p q r) _).trans (contrEquiv1_symm_val D K hr hs k)

include hrc hln hrn hlb hrb in
/-- The right operand's index at result entry (p, q, r) and contraction position k is (k, r). -/
theorem rhsIdx_eq (p : Fin A) (q : Fin B) (r : Fin N) (k : Fin K) :
    D.rhsIdx (ix3 p q r) ((contrEquiv1 D K hr hs).symm k) = ix2 k r := by
  funext a
  apply Fin.ext
  match a with
  | ⟨0, _⟩ => exact (D.rhsIdx_val_of_single hrc (ix3 p q r) _).trans (contrEquiv1_symm_val D K hr hs k)
  | ⟨1, _⟩ =>
    exact rhsIdx_val_nonContracting_at D hlb hrb (by rw [hrn]; exact List.mem_singleton.mpr rfl) (p := 2)
      (by rw [hln, hrn]; rfl) (by show (2 : ℕ) < 3; omega) (ix3 p q r) _

include hlc hrc hln hrn hlb hrb hr hs in
/-- The host's product, at entry (p, q, r). -/
theorem dotGeneral_apply {φ₁ φ₂ : FTy} (prec : Option ContractPrecision) (sched : HostSchedule)
    (a : FVec Ideal ⟨3, ![A, B, K]⟩ φ₁) (b : FVec Ideal ⟨2, ![K, N]⟩ φ₂) (p : Fin A) (q : Fin B) (r : Fin N) :
    FloatOps.dotGeneral D prec sched a b (ix3 p q r) = ∑ k : Fin K, a (ix3 p q k) * b (ix2 k r) := by
  refine (Ideal.dotGeneral_apply D prec sched a b (ix3 p q r)).trans ?_
  rw [← Equiv.sum_comp (contrEquiv1 D K hr hs).symm]
  refine Finset.sum_congr rfl fun k _ => ?_
  rw [lhsIdx_eq D hlc hln hlb hr hs p q r k, rhsIdx_eq D hrc hln hrn hlb hrb hr hs p q r k]

end Stack

end Idealize.ShloMosaic.StackDot
-- ==== Proof.LibRowGather.lean ====
/-
  Whole rows gathered out of a stack of matrices, read at an index.

  What `x[:, idx, :]` of an array `x : [A, N, C]` at an integer column `idx : [R, 1]` is as a gather: offset axes 0 and 2
  of the result, the operand's axis 1 collapsed and indexed, slices of A x 1 x C. Result element (p, r, c) is `x` at
  (p, s, c), where s is the start index `idx[r, 0]` read as a signed integer and clamped into [0, N - 1].
-/
import Idealize.ShloMosaic.Lib.ValueIdx

namespace Idealize.ShloMosaic.RowGather

open Idealize.ShloMosaic Idealize.ShloMosaic.ValueIdx

variable {α : Type}

/-- Those dimension numbers for an operand [A, N, C], start indices [R, 1] and result [A, R, C]. -/
abbrev rowsDims (A N R C : Nat)
    (wf : GatherDims.WF ⟨3, ![A, N, C]⟩ ⟨2, ![R, 1]⟩ ⟨3, ![A, R, C]⟩ [0, 2] [1] [] [1] [] 1 ![A, 1, C]) :
    GatherDims ⟨3, ![A, N, C]⟩ ⟨2, ![R, 1]⟩ ⟨3, ![A, R, C]⟩ where
  offsetDims := [0, 2]
  collapsedSliceDims := [1]
  operandBatchingDims := []
  startIndicesBatchingDims := []
  startIndexMap := [1]
  indexVectorDim := 1
  sliceSizes := ![A, 1, C]
  wf := wf

/-- The gather read at (p, r, c): the operand at (p, s, c), s the start index `idx[r, 0]` read signed and clamped into
    [0, N - 1]. -/
theorem gather_rows_apply {A N R C w : Nat} (hN : 0 < N)
    (wf : GatherDims.WF ⟨3, ![A, N, C]⟩ ⟨2, ![R, 1]⟩ ⟨3, ![A, R, C]⟩ [0, 2] [1] [] [1] [] 1 ![A, 1, C])
    (x : (⟨3, ![A, N, C]⟩ : Shape).Idx → α) (idx : IVec ⟨2, ![R, 1]⟩ w) (p : Fin A) (r : Fin R) (c : Fin C) :
    Host.gather (rowsDims A N R C wf) x idx (ix3 p r c)
      = x (ix3 p ⟨min (idx (ix2 r ⟨0, Nat.one_pos⟩)).toInt.toNat (N - 1), by omega⟩ c) := by
  unfold Host.gather
  congr 1
  funext a
  refine Fin.ext ?_
  show (rowsDims A N R C wf).start (ix3 p r c) idx a + (rowsDims A N R C wf).batchCoord (ix3 p r c) a
      + (rowsDims A N R C wf).offCoord (ix3 p r c) a = _
  rw [GatherDims.batchCoord_eq_zero _ _ _ List.not_mem_nil]
  match a with
  | ⟨0, _⟩ =>
    show (rowsDims A N R C wf).start (ix3 p r c) idx (0 : Fin 3) + 0
      + (rowsDims A N R C wf).offCoord (ix3 p r c) (0 : Fin 3) = p.val
    have hs : (rowsDims A N R C wf).start (ix3 p r c) idx (0 : Fin 3) = 0 := by
      unfold GatherDims.start
      rw [dif_neg (show ¬ ((0 : Fin 3) ∈ ([1] : List (Fin 3))) by decide)]
    have ho : (rowsDims A N R C wf).offCoord (ix3 p r c) (0 : Fin 3) = p.val := by
      unfold GatherDims.offCoord
      rw [dif_pos (show (0 : Fin 3) ∈ (rowsDims A N R C wf).sKept from
        ((rowsDims A N R C wf).mem_sKept _).2
          ⟨(show ¬ ((0 : Fin 3) ∈ ([1] : List (Fin 3))) by decide), List.not_mem_nil⟩)]
      rfl
    rw [hs, ho]; omega
  | ⟨1, _⟩ =>
    show (rowsDims A N R C wf).start (ix3 p r c) idx (1 : Fin 3) + 0
      + (rowsDims A N R C wf).offCoord (ix3 p r c) (1 : Fin 3) = min (idx (ix2 r ⟨0, Nat.one_pos⟩)).toInt.toNat (N - 1)
    have hk : (1 : Fin 3) ∉ (rowsDims A N R C wf).sKept := fun h =>
      (((rowsDims A N R C wf).mem_sKept _).1 h).1 (List.mem_singleton.mpr rfl)
    rw [GatherDims.offCoord_eq_zero _ _ _ hk]
    simp only [Nat.add_zero]
    unfold GatherDims.start
    rw [dif_pos (show (1 : Fin 3) ∈ (rowsDims A N R C wf).startIndexMap from List.mem_singleton.mpr rfl)]
    have hsi : (rowsDims A N R C wf).siIdx (ix3 p r c) ⟨List.idxOf (1 : Fin 3) (rowsDims A N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨2, _⟩ =>
    show (rowsDims A N R C wf).start (ix3 p r c) idx (2 : Fin 3) + 0
      + (rowsDims A N R C wf).offCoord (ix3 p r c) (2 : Fin 3) = c.val
    have hs : (rowsDims A N R C wf).start (ix3 p r c) idx (2 : Fin 3) = 0 := by
      unfold GatherDims.start
      rw [dif_neg (show ¬ ((2 : Fin 3) ∈ ([1] : List (Fin 3))) by decide)]
    have ho : (rowsDims A N R C wf).offCoord (ix3 p r c) (2 : Fin 3) = c.val := by
      unfold GatherDims.offCoord
      rw [dif_pos (show (2 : Fin 3) ∈ (rowsDims A N R C wf).sKept from
        ((rowsDims A N R C wf).mem_sKept _).2
          ⟨(show ¬ ((2 : Fin 3) ∈ ([1] : List (Fin 3))) by decide), List.not_mem_nil⟩)]
      rfl
    rw [hs, ho]; omega

end Idealize.ShloMosaic.RowGather
-- ==== Proof.RefReadTable.lean ====
/-
  The reference's index table, entry by entry.

  The table lists, for each of the 165 cells in turn and each of its seven neighbours in turn, the number of the padded
  cell that neighbour is. For the cell at position x0 of row y0 and neighbour j this is `start y0 j + x0`: the
  neighbours number j of the fifteen cells of a row are fifteen consecutive padded cells. All 1155 entries are compared,
  one by one.
-/
import proofs.«144630_j18339510353957_2_alg».proof.Proof.Gen.ReferenceIdeal
import proofs.«144630_j18339510353957_2_alg».proof.Proof.Spec
import Idealize.ShloMosaic.Lib.Decide

namespace Cert.ReferenceIdeal.RefValue

open Cert.ReferenceIdeal Idealize.ShloMosaic

/-- Entry 7 * (15 * y0 + x0) + j of the table is `start y0 j + x0`. -/
theorem table_entry : ∀ (y0 : Fin 11) (x0 : Fin 15) (j : Fin 7),
    lit0t (7 * (15 * y0.val + x0.val) + j.val) = BitVec.ofNat 32 (Cert.HexConv.start y0 j + x0.val) := by
  decide

/-- Entry 7 * n + j of the table is neighbour j of cell n. -/
theorem table_nbr (n : Fin 165) (j : Fin 7) : lit0t (7 * n.val + j.val) = BitVec.ofNat 32 (Cert.HexConv.nbr n j).val := by
  have h := table_entry (Cert.HexConv.rowOf n) (Cert.HexConv.posOf n) j
  have e : 15 * (Cert.HexConv.rowOf n).val + (Cert.HexConv.posOf n).val = n.val := Nat.div_add_mod n.val 15
  rw [e] at h
  exact h

end Cert.ReferenceIdeal.RefValue
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.RefValue.lean ====
/-
  The reference computes the hexagonal convolution layer.

  The run leaves in the result buffer the composed term `refOut x W b`. Read at batch entry bb, cell n and output channel
  c, outermost operation first: the residual sum is a sum of two entries; the leaky rectifier acts entry by entry; the
  value before it is the product's entry plus the bias at c; the product's entry is the sum over the 3584 columns of the
  regrouped gather against the weight's rows, which taken 512 columns at a time is the sum over the seven neighbours j
  and the 512 channels k at column 512 * j + k; the regrouped gather at that column is the gathered row 7 * n + j at
  channel k; and the gather reads the padded input at the cell the table names there, which is neighbour j of cell n:
  no table entry is negative and every one is below 221, so the start index is used as it stands.

  The padded input stays the run's own term `padRef x` throughout and is never read at an index.
-/
import proofs.«144630_j18339510353957_2_alg».proof.Proof.RefRun
import proofs.«144630_j18339510353957_2_alg».proof.Proof.LibStackDot
import proofs.«144630_j18339510353957_2_alg».proof.Proof.LibRowGather
import proofs.«144630_j18339510353957_2_alg».proof.Proof.RefReadTable
import proofs.«144630_j18339510353957_2_alg».proof.Proof.LibBlockSum
import proofs.«144630_j18339510353957_2_alg».proof.Proof.Spec
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.HexConv (nbr wrow leaky hexAt hexOut)

/-! ## The start indices -/

/-- A table entry below 221 is not negative, so the selection keeps it; and read as a signed integer it is itself. -/
theorem start_scalar : ∀ v : Fin 221,
    Scalar.select (IntOp.cmpi .slt (BitVec.ofNat 32 v.val) 0#32) (IntOp.addi (BitVec.ofNat 32 v.val) 221#32)
        (BitVec.ofNat 32 v.val) = BitVec.ofNat 32 v.val
      ∧ (BitVec.ofNat 32 v.val).toInt.toNat = v.val := by
  decide

/-- The start index of gathered row 7 * n + j is neighbour j of cell n. -/
theorem idxOf_tbl (n : Fin 165) (j : Fin 7) (r : Fin 1155) (hr : r.val = 7 * n.val + j.val) :
    idxOf tblRef (ix2 r ⟨0, Nat.one_pos⟩) = BitVec.ofNat 32 (nbr n j).val := by
  unfold idxOf
  refine (broadcastInDim_apply _ _ _ (ix2 r ⟨0, Nat.one_pos⟩) (ix1 r) fun a => ?_).trans ?_
  · match a with
    | ⟨0, _⟩ => rfl
  have e : tblRef (ix1 r) = BitVec.ofNat 32 (nbr n j).val := by
    show lit0t (S1155.rowMajor (ix1 r)).val = _
    rw [Shape.rowMajor_val_one]
    show lit0t r.val = _
    rw [hr]
    exact table_nbr n j
  show Scalar.select (IntOp.cmpi .slt (tblRef (ix1 r)) 0#32) (IntOp.addi (tblRef (ix1 r)) 221#32) (tblRef (ix1 r)) = _
  rw [e]
  exact (start_scalar (nbr n j)).1

/-! ## The gather and its regrouping -/

/-- Gathered row 7 * n + j is row `nbr n j` of the padded array. -/
theorem gather_row (P : FVec Ideal S256x221x512 .f32) (bb : Fin 256) (n : Fin 165) (j : Fin 7) (k : Fin 512) (r : Fin 1155)
    (hr : r.val = 7 * n.val + j.val) :
    Host.gather gather_S256x221x512_S1155x1_S256x1155x512_02_1_n_n_1_1_2561512 P (idxOf tblRef) (ix3 bb r k)
      = P (ix3 bb (nbr n j) k) := by
  refine (RowGather.gather_rows_apply (A := 256) (N := 221) (R := 1155) (C := 512) (by decide)
    gather_S256x221x512_S1155x1_S256x1155x512_02_1_n_n_1_1_2561512_wf P (idxOf tblRef) bb r k).trans ?_
  refine congrArg (fun z => P (ix3 bb z k)) (Fin.ext ?_)
  show min (idxOf tblRef (ix2 r ⟨0, Nat.one_pos⟩)).toInt.toNat (221 - 1) = (nbr n j).val
  rw [idxOf_tbl n j r hr, (start_scalar (nbr n j)).2]
  have := (nbr n j).isLt
  omega

/-- Column 512 * j + k of cell n of the regrouped gather is channel k of row `nbr n j` of the padded array. -/
theorem gatheredWith_apply (P : FVec Ideal S256x221x512 .f32) (bb : Fin 256) (n : Fin 165) (j : Fin 7) (k : Fin 512) :
    gatheredWith tblRef P (ix3 bb n (wrow j k)) = P (ix3 bb (nbr n j) k) := by
  have hlt : 7 * n.val + j.val < 1155 := by have := n.isLt; have := j.isLt; omega
  unfold gatheredWith
  refine (shapeCast_apply _ _ (ix3 bb n (wrow j k)) (ix3 bb (⟨7 * n.val + j.val, hlt⟩ : Fin 1155) k) ?_).trans
    (gather_row P bb n j k ⟨7 * n.val + j.val, hlt⟩ rfl)
  rw [Shape.rowMajor_val_three, Shape.rowMajor_val_three]
  show (bb.val * 1155 + (7 * n.val + j.val)) * 512 + k.val = (bb.val * 165 + n.val) * 3584 + (512 * j.val + k.val)
  omega

/-! ## The product, the bias, the rectifier -/

/-- The product's entry (bb, n, c), its 3584 terms taken 512 at a time. -/
theorem dot_apply (g : FVec Ideal S256x165x3584 .f32) (W : FVec Ideal S3584x512 .f32) (bb : Fin 256) (n : Fin 165) (c : Fin 512) :
    Host.dotGeneral dot_S256x165x3584_S3584x512_S256x165x512_2_0_01_1_n_n none g W (ix3 bb n c)
      = ∑ j : Fin 7, ∑ k : Fin 512, g (ix3 bb n (wrow j k)) * W (ix2 (wrow j k) c) := by
  simp only [Host.dotGeneral]
  refine (StackDot.dotGeneral_apply (A := 256) (B := 165) (K := 3584) (N := 512)
    dot_S256x165x3584_S3584x512_S256x165x512_2_0_01_1_n_n rfl rfl rfl rfl rfl rfl rfl rfl _ _ g W bb n c).trans ?_
  exact BlockSum.sum_blocks 7 512 fun q : Fin (7 * 512) => g (ix3 bb n q) * W (ix2 q c)

/-- The value before the rectifier at (bb, n, c): the product's entry plus the bias at c. -/
theorem preActOf_apply (g : FVec Ideal S256x165x3584 .f32) (W : FVec Ideal S3584x512 .f32) (b : FVec Ideal S512 .f32)
    (bb : Fin 256) (n : Fin 165) (c : Fin 512) :
    preActOf g W b (ix3 bb n c)
      = (∑ j : Fin 7, ∑ k : Fin 512, g (ix3 bb n (wrow j k)) * W (ix2 (wrow j k) c)) + b (ix1 c) := by
  unfold preActOf
  rw [addf_apply, dot_apply]
  congr 1
  refine (broadcastInDim_apply _ _ _ (ix3 bb n c) (ix3 (0 : Fin 1) (0 : Fin 1) c) fun a => ?_).trans ?_
  · match a with
    | ⟨0, _⟩ => rfl
    | ⟨1, _⟩ => rfl
    | ⟨2, _⟩ => rfl
  refine broadcastInDim_apply _ _ _ (ix3 (0 : Fin 1) (0 : Fin 1) c) (ix1 c) fun a => ?_
  match a with
  | ⟨0, _⟩ => rfl

/-- The rectifier with the reference's slope acts entry by entry, as `leaky`. -/
theorem leakyWith_apply (y : FVec Ideal S256x165x512 .f32) (i : S256x165x512.Idx) :
    leakyWith (constant (F := Ideal) S_ .f32 0x3C23D70A#32) y i = leaky (y i) := rfl

/-! ## The result -/

/-- The reference's composed term is the layer, over the run's own padded input. -/
theorem refOut_eq (x : FVec Ideal S256x165x512 .f32) (W : FVec Ideal S3584x512 .f32) (b : FVec Ideal S512 .f32) :
    refOut x W b = hexOut (padRef x) W b x := by
  generalize hP : padRef x = P
  funext i
  obtain ⟨bb, n, c, rfl⟩ : ∃ (bb : Fin 256) (n : Fin 165) (c : Fin 512), i = ix3 bb n c := ⟨i 0, i 1, i 2, eq_ix3 i⟩
  rw [Cert.HexConv.hexOut_ix3]
  unfold refOut hexAt
  rw [hP, addf_apply, leakyWith_apply, preActOf_apply]
  congr 3
  refine Finset.sum_congr rfl fun j _ => Finset.sum_congr rfl fun k _ => ?_
  rw [gatheredWith_apply]

/-- Every weakly fair execution of the reference terminates with its result the layer of its arguments, over the padded
    input `padRef` of the first, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = Cert.HexConv.hexOut (padRef (m ((c.tc : Thread nD τ).loc main_arg0))) (m ((c.tc : Thread nD τ).loc main_arg1))
              (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refOut_eq _ _ _), (h c).2⟩) (run_refOut m ρ)

end Cert.ReferenceIdeal.RefValue

end
-- ==== Proof.lean ====
/-
  A hexagonal-grid convolution layer with a residual connection: the tiled kernel against the plain formula.

  The input x is [256, 165, 512]: 256 batch entries, a grid of 11 rows of 15 hexagons, 512 channels. Both programs
  pad the grid with a border of zeros to 13 rows of 17 cells (221 cells). The layer multiplies, for every cell, the
  seven neighbouring padded cells (7 * 512 numbers) with the [3584, 512] weight W, adds the bias b, applies the leaky
  rectifier with slope 0.01 and adds x:

      out(bb, n, c) = x(bb, n, c)
                      + leaky( (sum over j < 7, k < 512 of P(bb, nbr(n, j), k) * W(512 j + k, c)) + b(c) ).

  The reference gathers the seven neighbours of each of the 165 cells through a table of 1155 cell numbers into a
  [256, 165, 3584] array and takes ONE product with W. The kernel never builds that array: it works on 16 batch entries
  at a time and, for each of the 11 rows, uses that the j-th neighbours of the 15 cells of a row are 15 consecutive padded
  cells; it takes seven [240, 512] x [512, 512] products per row and adds them from left to right.

  On the extended reals the two are the same function, and no finiteness is needed:
    * a cast between float formats is the identity, so the kernel's 16-bit operands are the reference's;
    * the table's entry for cell 15 y0 + x0 and neighbour j is start(y0, j) + x0 — 1155 closed facts — which is exactly
      the j-th run of row y0 the kernel slices;
    * a sum over 3584 = 7 * 512 indices is the sum over 7 blocks of 512, by associativity and commutativity of
      addition alone, which hold at the infinities too;
    * the bias, the rectifier (same comparison, same literal slope) and the residual are applied in the same order.
  The padded array P is never opened: both programs build it by the same operations of x, and both read it only at
  cells the table names.

  The kernel's frames are the generated ones; the reference's frame is its run with the result dropped.
-/
import proofs.«144630_j18339510353957_2_alg».proof.Defs
import proofs.«144630_j18339510353957_2_alg».proof.Proof.Gen.Kernel.Frame
import proofs.«144630_j18339510353957_2_alg».proof.Proof.Gen.KernelIdeal.Frame
import proofs.«144630_j18339510353957_2_alg».proof.Proof.Gen.ReferenceIdeal
import proofs.«144630_j18339510353957_2_alg».proof.Proof.Gen.Pre_finite_inputs
import proofs.«144630_j18339510353957_2_alg».proof.Proof.Bridge
import proofs.«144630_j18339510353957_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing: the idealized kernel is the kernel's own text read on the extended reals. -/
theorem preserves : Cert.preserves_Kernel_KernelIdeal := trivial

/-- Both programs end with the layer's specification of the padded input, the weight, the bias and the input. -/
theorem algebraic : Cert.algebraic_KernelIdeal_ReferenceIdeal := by
  intro m ρ m' ρ' _ hagree
  refine ⟨fun c => Cert.HexConv.hexOut
      (Cert.ReferenceIdeal.RefValue.padRef (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Array.run_arr m ρ)
    rw [Cert.KernelIdeal.Host.arrOut_eq, Cert.HexConv.pad_eq]
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
